-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x4096x4096 : Shape := ⟨3, ![2, 4096, 4096]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg6
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg7 main_v33

def fn {F : FTy → Type} [FloatOps F] (main_arg0 : FVec F S4096x128 .f32) (main_arg1 : FVec F S2x4096x4096 .f32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S4096x128 : Shape := ⟨2, ![4096, 128]⟩
abbrev S2x4096x4096 : Shape := ⟨3, ![2, 4096, 4096]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S1x40 : Shape := ⟨2, ![1, 40]⟩
abbrev S1x512x4096 : Shape := ⟨3, ![1, 512, 4096]⟩
abbrev S512x128 : Shape := ⟨2, ![512, 128]⟩
abbrev S512x4096 : Shape := ⟨2, ![512, 4096]⟩
abbrev S4096x40 : Shape := ⟨2, ![4096, 40]⟩
abbrev S512x40 : Shape := ⟨2, ![512, 40]⟩

abbrev nBuf : Space → Nat
  | .hbm => 13
  | .vmem => 17
  | .smem => 0
  | _ => 0

abbrev bufTy : (tb : Table) → Fin (tcTables nBuf tb) → BufTy
  | .hbm, ⟨0, _⟩ => ⟨S4096x128, .f32⟩
  | .hbm, ⟨1, _⟩ => ⟨S2x4096x4096, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x128, .f32⟩
  | .hbm, ⟨9, _⟩ => ⟨S1x128, .f32⟩
  | .hbm, ⟨10, _⟩ => ⟨S1x40, .f32⟩
  | .hbm, ⟨11, _⟩ => ⟨S4096x128, .f32⟩
  | .hbm, ⟨12, _⟩ => ⟨S4096x40, .f32⟩
  | .local _ .vmem, ⟨0, _⟩ => ⟨S4096x128, .f32⟩
  | .local _ .vmem, ⟨1, _⟩ => ⟨S1x512x4096, .f32⟩
  | .local _ .vmem, ⟨2, _⟩ => ⟨S1x512x4096, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S512x128, .f32⟩
  | .local _ .vmem, ⟨7, _⟩ => ⟨S512x128, .f32⟩
  | .local _ .vmem, ⟨8, _⟩ => ⟨S4096x128, .f32⟩
  | .local _ .vmem, ⟨9, _⟩ => ⟨S4096x128, .f32⟩
  | .local _ .vmem, ⟨10, _⟩ => ⟨S1x512x4096, .f32⟩
  | .local _ .vmem, ⟨11, _⟩ => ⟨S1x512x4096, .f32⟩
  | .local _ .vmem, ⟨12, _⟩ => ⟨S1x128, .f32⟩
  | .local _ .vmem, ⟨13, _⟩ => ⟨S128x40, .f32⟩
  | .local _ .vmem, ⟨14, _⟩ => ⟨S1x40, .f32⟩
  | .local _ .vmem, ⟨15, _⟩ => ⟨S512x40, .f32⟩
  | .local _ .vmem, ⟨16, _⟩ => ⟨S512x40, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  shapeCasts_S40_S1x40 : S40.ShapeCasts S1x40
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S4096x128_S4096x128 : S4096x128.ShapeCasts S4096x128
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S512x40 : S1x40.Broadcasts S512x40
  inb_S512x40_S512x40_0_0 : ∀ a, (![0, 0] : Fin 2 → Nat) a + S512x40.size a ≤ S512x40.size a
  h_S512x40 : 0 < S512x40.numel
  dot_S4096x128_S128x128_S4096x128_1_0_0_1_n_n_wf : DotDims.WF S4096x128 S128x128 S4096x128 [1] [0] [0] [1] [] []
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  dot_S512x128_S128x40_S512x40_1_0_0_1_n_n_wf : DotDims.WF S512x128 S128x40 S512x40 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S2x4096x4096.size a
  hwx0_1 : ∀ i : grid0.Coords, EltTy.bits .f32 = 32 ∨ (Rect.block (s := S2x4096x4096) S1x512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x128.size a
  hwx1_0 : ∀ i : grid1.Coords, EltTy.bits .f32 = 32 ∨ (Rect.block (s := S4096x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x4096.size a ≤ S2x4096x4096.size a
  hwx1_1 : ∀ i : grid1.Coords, EltTy.bits .f32 = 32 ∨ (Rect.block (s := S2x4096x4096) S1x512x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x40.size a ≤ S4096x40.size a
  hwx1_5 : ∀ i : grid1.Coords, EltTy.bits .f32 = 32 ∨ (Rect.block (s := S4096x40) S512x40.size (cc1_transform_5 i) (hinb1_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x40_S512x40_1_0_0_1_n_n : DotDims S512x128 S128x40 S512x40 where
  lhsContracting := [1]
  rhsContracting := [0]
  lhsNonContracting := [0]
  rhsNonContracting := [1]
  lhsBatch := []
  rhsBatch := []
  wf := dot_S512x128_S128x40_S512x40_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3) S4096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S512x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x128 : Shape := ⟨2, ![4096, 128]⟩
abbrev S2x4096x4096 : Shape := ⟨3, ![2, 4096, 4096]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x4096x4096 : Shape := ⟨3, ![1, 4096, 4096]⟩
abbrev S4096x4096 : Shape := ⟨2, ![4096, 4096]⟩
abbrev S1x128 : Shape := ⟨2, ![1, 128]⟩
abbrev S_ : Shape := ⟨0, ![]⟩
abbrev S4096x40 : Shape := ⟨2, ![4096, 40]⟩
abbrev S1x40 : Shape := ⟨2, ![1, 40]⟩

abbrev nBuf : Space → Nat
  | .hbm => 32
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2x4096x4096, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x4096x4096, .f32⟩
  | .hbm, ⟨9, _⟩ => ⟨S4096x4096, .f32⟩
  | .hbm, ⟨10, _⟩ => ⟨S4096x128, .f32⟩
  | .hbm, ⟨11, _⟩ => ⟨S4096x128, .f32⟩
  | .hbm, ⟨12, _⟩ => ⟨S1x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S1x4096x4096, .f32⟩
  | .hbm, ⟨19, _⟩ => ⟨S4096x4096, .f32⟩
  | .hbm, ⟨20, _⟩ => ⟨S4096x128, .f32⟩
  | .hbm, ⟨21, _⟩ => ⟨S4096x128, .f32⟩
  | .hbm, ⟨22, _⟩ => ⟨S1x128, .f32⟩
  | .hbm, ⟨23, _⟩ => ⟨S4096x128, .f32⟩
  | .hbm, ⟨24, _⟩ => ⟨S4096x128, .f32⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S4096x40, .f32⟩
  | .hbm, ⟨29, _⟩ => ⟨S1x40, .f32⟩
  | .hbm, ⟨30, _⟩ => ⟨S4096x40, .f32⟩
  | .hbm, ⟨31, _⟩ => ⟨S4096x40, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  slices_S2x4096x4096_S1x4096x4096_0_0_0 : S2x4096x4096.Slices ![0, 0, 0] S1x4096x4096
  shapeCasts_S1x4096x4096_S4096x4096 : S1x4096x4096.ShapeCasts S4096x4096
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  slices_S2x4096x4096_S1x4096x4096_1_0_0 : S2x4096x4096.Slices ![1, 0, 0] S1x4096x4096
  bcast_S40_S1x40_1 : S40.BroadcastsInDim S1x40 (![1] : Fin 1 → Fin S1x40.rank)
  bcast_S1x40_S4096x40_0_1 : S1x40.BroadcastsInDim S4096x40 (![0, 1] : Fin 2 → Fin S4096x40.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []
  dot_S4096x128_S128x40_S4096x40_1_0_0_1_n_n_wf : DotDims.WF S4096x128 S128x40 S4096x40 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x40_S4096x40_1_0_0_1_n_n : DotDims S4096x128 S128x40 S4096x40 where
  lhsContracting := [1]
  rhsContracting := [0]
  lhsNonContracting := [0]
  rhsNonContracting := [1]
  lhsBatch := []
  rhsBatch := []
  wf := dot_S4096x128_S128x40_S4096x40_1_0_0_1_n_n_wf

class Facts : Prop extends Facts₀ where

variable [Facts]
-- ==== Proof.KwLayer1.lean ====
/-
  The first layer's kernel region, read at whatever the core's buffers hold when the region is entered.
  The grid has eight points. At the first point the body multiplies the whole feature array by the first
  weight matrix and keeps the 4096 × 128 product in a scratch buffer; at every point (the first included)
  it takes a 512-row slab of the first adjacency matrix, the scratch, the bias row and the second weight
  matrix and stores one 512 × 128 block:  max (slab · scratch + b1, 0) · W2.  The later points never store
  into the scratch, so from the second point on the scratch holds one fixed array — what the first point
  left — and the region's invariant says exactly that.
-/
import proofs.«138342_g9079560864557_cont_9to1_m_1012_20_alg».proof.Proof.Gen.Kernel.Launch
import proofs.«138342_g9079560864557_cont_9to1_m_1012_20_alg».proof.Proof.Gen.Kernel.Skeleton
import proofs.«138342_g9079560864557_cont_9to1_m_1012_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch on the grid coordinate -/

/-- The body's one conditional: "this is grid point 0", as the body computes it from the coordinate. -/
abbrev cond0 (i : grid0.Coords) : Prop :=
  (Scalar.cmpi .ne (Scalar.extui (Scalar.cmpi .eq (BitVec.ofNat 32 (i 0).val) 0#32)) 0#32) = 1#1
/-- It holds at the first point only — decided over the eight points. -/
theorem hcond0 : ∀ t : Fin cfg0.N, cond0 (grid0.coords t) ↔ t.val % 8 = 0 :=
  (by decide +kernel : ∀ t : Fin grid0.N, cond0 (grid0.coords t) ↔ t.val % 8 = 0)

/-! ## The memrefs the body is called with -/

abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- The scratch operand: a whole scoped buffer of the kernel's own. -/
abbrev scM0 : Memref sig .tc .vmem S4096x128 .f32 := Memref.whole cc0_scratch0
/-- One staging buffer of the output window, and the scratch, as views through which contents are stated. -/
abbrev VO0 : View sig .tc .vmem S512x128 .f32 := (Memref.whole cc0_stg5_0 : Memref sig .tc .vmem S512x128 .f32).view
abbrev VS0 : View sig .tc .vmem S4096x128 .f32 := scM0.view

/-- The scoped buffers of the core that are neither this region's staging buffers nor its scratch, each at
    some contents: the second region's eight staging buffers. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the region: the scratch at anything, those other scoped buffers, the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-! ## The body's two runs: the pieces each buffer ends with are found by running it -/

set_option maxHeartbeats 4000000 in
/-- AT THE FIRST POINT (the conditional taken): the inputs at their contents, output block and scratch at anything;
    the body ends with the inputs as they were, the scratch with its pieces written and the output block with its. -/
noncomputable def kernelRunA (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i)
    (x0 : Vec F S4096x128 .f32) (x1 : Vec F S1x512x4096 .f32) (x2 : Vec F S128x128 .f32) (x3 : Vec F S1x128 .f32) (x4 : Vec F S128x128 .f32) :
    Σ' (L5 : List (View.Piece (Elt F) S512x128 .f32)), { LS : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__layer1_kernel i arg1 harg1 arg2 harg2 arg3 harg3 arg4 harg4 arg5 harg5 arg6 harg6 arg7 harg7) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

set_option maxHeartbeats 4000000 in
/-- AT A LATER POINT (the conditional not taken): the inputs at their contents, the scratch at contents `xs`, the
    output block at anything; the body ends with inputs and scratch as they were and the output block with its
    pieces written. -/
noncomputable def kernelRunB (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : ¬cond0 i)
    (x0 : Vec F S4096x128 .f32) (x1 : Vec F S1x512x4096 .f32) (x2 : Vec F S128x128 .f32) (x3 : Vec F S1x128 .f32) (x4 : Vec F S128x128 .f32) (xs : Vec F S4096x128 .f32) :
    { L5 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__layer1_kernel i arg1 harg1 arg2 harg2 arg3 harg3 arg4 harg4 arg5 harg5 arg6 harg6 arg7 harg7) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

/-! ## What the buffers hold after each run -/

theorem coverA (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i) (x0 : Vec F S4096x128 .f32) (x1 : Vec F S1x512x4096 .f32) (x2 : Vec F S128x128 .f32) (x3 : Vec F S1x128 .f32) (x4 : Vec F S128x128 .f32) (y : S512x128.Idx) :
    ∃ pc ∈ (kernelRunA c i arg1 harg1 arg2 harg2 arg3 harg3 arg4 harg4 arg5 harg5 arg6 harg6 arg7 harg7 hc x0 x1 x2 x3 x4).1, y ∈ pc.1.set :=
  View.cover_of_tiledL (kernelRunA c i arg1 harg1 arg2 harg2 arg3 harg3 arg4 harg4 arg5 harg5 arg6 harg6 arg7 harg7 hc x0 x1 x2 x3 x4).1 S512x128.size (by sl_kernel_rfl) y

/-- The output block after the first point's run: its pieces read back. -/
def outA (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i) (x0 : Vec F S4096x128 .f32) (x1 : Vec F S1x512x4096 .f32) (x2 : Vec F S128x128 .f32) (x3 : Vec F S1x128 .f32) (x4 : Vec F S128x128 .f32) : Vec F S512x128 .f32 :=
  VO0.read (Elt F) (VO0.writes (Elt F) VO0.junk (kernelRunA c i arg1 harg1 arg2 harg2 arg3 harg3 arg4 harg4 arg5 harg5 arg6 harg6 arg7 harg7 hc x0 x1 x2 x3 x4).1)

theorem scoverA (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i) (x0 : Vec F S4096x128 .f32) (x1 : Vec F S1x512x4096 .f32) (x2 : Vec F S128x128 .f32) (x3 : Vec F S1x128 .f32) (x4 : Vec F S128x128 .f32) (y : S4096x128.Idx) :
    ∃ pc ∈ (kernelRunA c i arg1 harg1 arg2 harg2 arg3 harg3 arg4 harg4 arg5 harg5 arg6 harg6 arg7 harg7 hc x0 x1 x2 x3 x4).2.1, y ∈ pc.1.set :=
  View.cover_of_tiledL (kernelRunA c i arg1 harg1 arg2 harg2 arg3 harg3 arg4 harg4 arg5 harg5 arg6 harg6 arg7 harg7 hc x0 x1 x2 x3 x4).2.1 S4096x128.size (by sl_kernel_rfl) y

/-- The scratch after the first point's run: its pieces read back. -/
def soutA (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i) (x0 : Vec F S4096x128 .f32) (x1 : Vec F S1x512x4096 .f32) (x2 : Vec F S128x128 .f32) (x3 : Vec F S1x128 .f32) (x4 : Vec F S128x128 .f32) : Vec F S4096x128 .f32 :=
  VS0.read (Elt F) (VS0.writes (Elt F) VS0.junk (kernelRunA c i arg1 harg1 arg2 harg2 arg3 harg3 arg4 harg4 arg5 harg5 arg6 harg6 arg7 harg7 hc x0 x1 x2 x3 x4).2.1)

theorem coverB (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : ¬cond0 i) (x0 : Vec F S4096x128 .f32) (x1 : Vec F S1x512x4096 .f32) (x2 : Vec F S128x128 .f32) (x3 : Vec F S1x128 .f32) (x4 : Vec F S128x128 .f32) (xs : Vec F S4096x128 .f32) (y : S512x128.Idx) :
    ∃ pc ∈ (kernelRunB c i arg1 harg1 arg2 harg2 arg3 harg3 arg4 harg4 arg5 harg5 arg6 harg6 arg7 harg7 hc x0 x1 x2 x3 x4 xs).1, y ∈ pc.1.set :=
  View.cover_of_tiledL (kernelRunB c i arg1 harg1 arg2 harg2 arg3 harg3 arg4 harg4 arg5 harg5 arg6 harg6 arg7 harg7 hc x0 x1 x2 x3 x4 xs).1 S512x128.size (by sl_kernel_rfl) y

/-- The output block after a later point's run: its pieces read back. -/
def outB (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : ¬cond0 i) (x0 : Vec F S4096x128 .f32) (x1 : Vec F S1x512x4096 .f32) (x2 : Vec F S128x128 .f32) (x3 : Vec F S1x128 .f32) (x4 : Vec F S128x128 .f32) (xs : Vec F S4096x128 .f32) : Vec F S512x128 .f32 :=
  VO0.read (Elt F) (VO0.writes (Elt F) VO0.junk (kernelRunB c i arg1 harg1 arg2 harg2 arg3 harg3 arg4 harg4 arg5 harg5 arg6 harg6 arg7 harg7 hc x0 x1 x2 x3 x4 xs).1)

/-- The first grid point. -/
abbrev p00 : Fin cfg0.N := t0_0

theorem p00_mod : (p00).val % 8 = 0 := rfl

/-- THE CARRIED ARRAY: what the first point leaves in the scratch — every later point finds exactly this. -/
def scr0 (c : Dev nD) : Vec F S4096x128 .f32 :=
  soutA c (grid0.coords p00) (ms0_0 p00) (hs0_0 p00) (ms0_1 p00) (hs0_1 p00) (ms0_2 p00) (hs0_2 p00) (ms0_3 p00) (hs0_3 p00) (ms0_4 p00) (hs0_4 p00) (ms0_5 p00) (hs0_5 p00) scM0 (Memref.isWhole_whole _) ((hcond0 p00).mpr p00_mod) (iblk0 V c 0 p00) (iblk0 V c 1 p00) (iblk0 V c 2 p00) (iblk0 V c 3 p00) (iblk0 V c 4 p00)

/-- The output block after the body at point `t`: the first point's run, or a later point's over the carried array. -/
def outAt0 (c : Dev nD) (t : Fin cfg0.N) : Vec F S512x128 .f32 :=
  if h : t.val % 8 = 0 then
    outA c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t) (iblk0 V c 4 t)
  else
    outB c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (iblk0 V c 4 t) (scr0 V c)

theorem outAt0_A (c : Dev nD) (t : Fin cfg0.N) (h : t.val % 8 = 0) :
    outAt0 V c t = outA c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t) (iblk0 V c 4 t) := dif_pos h
theorem outAt0_B (c : Dev nD) (t : Fin cfg0.N) (h : ¬t.val % 8 = 0) :
    outAt0 V c t = outB c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (iblk0 V c 4 t) (scr0 V c) := dif_neg h

/-- The region's invariant before position `n`: before the first point what the launch hands over (scratch at
    anything); afterwards the scratch at the carried array, the other scoped buffers and the generator register. -/
def Phi0 (c : Dev nD) (n : ℕ) : sProp 𝕄 :=
  if n = 0 then Pipeline.ΦA spec0 c
  else iprop(iprop(owns (c : Thread nD τ) scM0 fullShare (scr0 V c) ∗ rest0 c) ∗ (∃ r, prngReg c r))

theorem Phi0_zero (c : Dev nD) : Phi0 V c 0 = Pipeline.ΦA spec0 c := if_pos rfl
theorem Phi0_pos (c : Dev nD) (n : ℕ) (hn : n ≠ 0) :
    Phi0 V c n = iprop(iprop(owns (c : Thread nD τ) scM0 fullShare (scr0 V c) ∗ rest0 c) ∗ (∃ r, prngReg c r)) := if_neg hn

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt0 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) : (dat0 V c).Φ t.succ = Phi0 V c (t.val + 1) := by
  dsimp only [dat0]; simp only [Fin.val_succ]

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4000000 in
/-- The body at any point. The inputs' memrefs hold their blocks. At the first point the invariant hands over the
    scratch at anything and takes it back at the carried array (the run's pieces cover it); at a later point it
    hands the scratch over at the carried array and takes it back unchanged. The output block's pieces cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, Phi_castSucc0, Phi_succ0,
    Phi0_pos V c (t.val + 1) (Nat.succ_ne_zero _)]
  have hN : t.val < 8 := lt_of_lt_of_eq t.isLt (show cfg0.N = 8 from N_0)
  by_cases h0 : t.val % 8 = 0
  · have ht : t = p00 := Fin.ext (by show t.val = 0; omega)
    subst ht
    rw [show Phi0 V c (p00 : Fin cfg0.N).val = Pipeline.ΦA spec0 c from Phi0_zero V c, PhiA0_eq, outAt0_A V c p00 h0]
    unfold scr0 outA soutA; (try dsimp only)
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply ((kernelRunA c (grid0.coords p00) _ _ _ _ _ _ _ _ _ _ _ _ _ _ ((hcond0 p00).mpr h0) (iblk0 V c 0 p00) (iblk0 V c 1 p00) (iblk0 V c 2 p00) (iblk0 V c 3 p00) (iblk0 V c 4 p00)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hr Hg]
    · isplitl [HS Hr]
      · isplitl [HS]
        · unfold owns; iexists _; isplitr
          swap; · iexact HS
          ipureintro; exact View.read_writes_of_cover _ _ _ _ _ (scoverA c _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _ _ _)
  · have hz : t.val ≠ 0 := fun e => h0 (by rw [e])
    rw [Phi0_pos V c t.val hz, outAt0_B V c t h0]
    unfold outB; (try dsimp only)
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ _ _ (fun hc => h0 ((hcond0 t).mp hc)) (iblk0 V c 0 t) (iblk0 V c 1 t) (iblk0 V c 2 t) (iblk0 V c 3 t) (iblk0 V c 4 t) (scr0 V c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, Phi0_zero]
  try exact Idealize.SL.BI.Entails.refl _

/-- After the last point the invariant gives back what the launch handed over: the carried array is forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 8 := N_0; omega), PhiA0_eq]
  iintro ⟨⟨HS, Hr⟩, Hg⟩
  isplitl [HS Hr]
  · isplitl [HS]
    · iexists _; iexact HS
    iexact Hr
  iexact Hg

end Region0

end Cert.Kernel.Hand

end
-- ==== Proof.KwLayer2.lean ====
/-
  The second layer's kernel region, read at whatever the core's buffers hold when the region is entered.
  At each of the eight grid points the body takes the whole 4096 × 128 array handed over by the first layer,
  a 512-row slab of the second adjacency matrix, the bias row, the output weights and the output bias, and
  stores one 512 × 40 block:  max (slab · hw + b2, 0) · Wout + bout.  Nothing is kept between points, so the
  region's invariant is just the scoped buffers it does not stage and the generator register, untouched.
-/
import proofs.«138342_g9079560864557_cont_9to1_m_1012_20_alg».proof.Proof.Gen.Kernel.Launch
import proofs.«138342_g9079560864557_cont_9to1_m_1012_20_alg».proof.Proof.Gen.Kernel.Skeleton
import proofs.«138342_g9079560864557_cont_9to1_m_1012_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's whole-buffer rectangles -/

abbrev r1H : Rect S4096x128 := Rect.unit (s := S4096x128) ![0, 0] S4096x128.size inb_S4096x128_S4096x128_0_0
abbrev r1A : Rect S1x512x4096 := Rect.unit (s := S1x512x4096) ![0, 0, 0] S1x512x4096.size inb_S1x512x4096_S1x512x4096_0_0_0
abbrev r1B : Rect S1x128 := Rect.unit (s := S1x128) ![0, 0] S1x128.size inb_S1x128_S1x128_0_0
abbrev r1W : Rect S128x40 := Rect.unit (s := S128x40) ![0, 0] S128x40.size inb_S128x40_S128x40_0_0
abbrev r1C : Rect S1x40 := Rect.unit (s := S1x40) ![0, 0] S1x40.size inb_S1x40_S1x40_0_0
abbrev r1O : Rect S512x40 := Rect.unit (s := S512x40) ![0, 0] S512x40.size inb_S512x40_S512x40_0_0

/-- The output block after the body, from the five input blocks: its one store, the payload of the loads. -/
def out1_5 (x0 : Vec F S4096x128 .f32) (x1 : Vec F S1x512x4096 .f32) (x2 : Vec F S1x128 .f32) (x3 : Vec F S128x40 .f32)
    (x4 : Vec F S1x40 .f32) : Vec F S512x40 .f32 :=
  View.canon [⟨r1O, k1_pay1 (View.ld x1 r1A) (View.ld x0 r1H) (View.ld x2 r1B) (View.ld x3 r1W) (View.ld x4 r1C)⟩]

/-- The one store covers the block. -/
theorem cover1_5 (p0 : Vec F S512x40 .f32) (y : S512x40.Idx) :
    ∃ pc ∈ ([⟨r1O, p0⟩] : List (View.Piece (Elt F) S512x40 .f32)), y ∈ pc.1.set :=
  View.cover_of_tiled [⟨r1O, p0⟩] S512x40.size (by rfl) y

set_option maxHeartbeats 2000000 in
/-- The body on whole staging memrefs, the inputs' at read contents and the output's at anything, runs to the
    continuation holding the inputs' as they were and the output's at `out1_5` of the inputs'. -/
theorem sound_kernel1 (c : Dev nD) (E : Set ℕ) (i : grid1.Coords)
    (arg1 : Memref sig .tc .vmem S4096x128 .f32) (harg1 : arg1.IsWhole) (arg2 : Memref sig .tc .vmem S1x512x4096 .f32) (harg2 : arg2.IsWhole)
    (arg3 : Memref sig .tc .vmem S1x128 .f32) (harg3 : arg3.IsWhole) (arg4 : Memref sig .tc .vmem S128x40 .f32) (harg4 : arg4.IsWhole)
    (arg5 : Memref sig .tc .vmem S1x40 .f32) (harg5 : arg5.IsWhole) (arg6 : Memref sig .tc .vmem S512x40 .f32) (harg6 : arg6.IsWhole)
    (x0 : Vec F S4096x128 .f32) (x1 : Vec F S1x512x4096 .f32) (x2 : Vec F S1x128 .f32) (x3 : Vec F S128x40 .f32) (x4 : Vec F S1x40 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__layer2_kernel i arg1 harg1 arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The region's proof data -/

/-- After the body at point `t` each input's buffer holds its block and the output's the block computed from
    them; the invariant is the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KwRun.lean ====
/-
  The whole program as three segments in order — the three host reshapes of the bias vectors, the first
  layer's region, the second layer's region — with the core's buffer contents named at every boundary:
  launch contents, then the reshapes applied, then the first region's arrays at what its write-backs leave,
  then the second region's. Every weakly fair execution terminates, nothing faults, and every unscoped buffer
  ends at the last boundary's contents: the arguments as launched, the result at the second region's array.
-/
import proofs.«138342_g9079560864557_cont_9to1_m_1012_20_alg».proof.Proof.KwLayer1
import proofs.«138342_g9079560864557_cont_9to1_m_1012_20_alg».proof.Proof.KwLayer2
import proofs.«138342_g9079560864557_cont_9to1_m_1012_20_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the three reshapes (the first region's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- The reshapes write none of the eight arguments. -/
theorem W1_arg (c : Dev nD) (r : Ref sig .tc) (h : r ∉ hostOps0_W) : W1 m c (Proc.devRef .tc r) = m ((c : Thread nD τ).loc r) :=
  (V1_of m c r h).trans rfl

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (U1 m) c).arrAt_in 0 rfl _).trans (A_eq0 (U1 m) c 0))
    _ = m ((c : Thread nD τ).loc main_arg0) := W1_arg m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (U2 m) c).arrAt_in 1 rfl _).trans (A_eq1 (U2 m) c 1))
    _ = W1 m c (Proc.devRef .tc main_arg1) := (W2_arr m c 1).trans (((dat0 (U1 m) c).arrAt_in 1 rfl _).trans (A_eq0 (U1 m) c 1))
    _ = m ((c : Thread nD τ).loc main_arg1) := W1_arg m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (U1 m) c).arrAt_in 2 rfl _).trans (A_eq0 (U1 m) c 2))
    _ = m ((c : Thread nD τ).loc main_arg2) := W1_arg m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_arg m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (U1 m) c).arrAt_in 4 rfl _).trans (A_eq0 (U1 m) c 4))
    _ = m ((c : Thread nD τ).loc main_arg4) := W1_arg m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_arg m c main_arg5 (by decide)
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 3).trans (((dat1 (U2 m) c).arrAt_in 3 rfl _).trans (A_eq1 (U2 m) c 3))
    _ = W1 m c (Proc.devRef .tc main_arg6) := W2_of_ne m c main_arg6 (by decide)
    _ = m ((c : Thread nD τ).loc main_arg6) := W1_arg m c main_arg6 (by decide)
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = m ((c : Thread nD τ).loc main_arg7) := W1_arg m c main_arg7 (by decide)
/-- The result buffer ends at the second region's output array. -/
theorem W3_main_v4 (c : Dev nD) : W3 m c (Proc.devRef .tc main_v4) = (dat1 (U2 m) c).arrAt 5 cfg1.N := W3_arr m c 5

/-! ## The proof data family and the thread state -/

abbrev adm' : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every segment: the generator register at some state; nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first layer's region: entered from every unscoped buffer at `W1`, left at `W2`. Its arrays split out of the
    unscoped buffers and put back at the exit contents; the generator register into the invariant and out. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (U1 m) c)
    show (_ : sProp 𝕄) ⊢ _
    unfold Pipeline.ΦA
    iintro ⟨Hp, -, Hr⟩
    isplitl [Hr]; · iexact Hr
    iexact Hp
  hout c := by
    refine BI.Entails.trans (hout0 (U1 m) c) ?_
    show (_ : sProp 𝕄) ⊢ _
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at `W2`, left at `W3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩) (run_all m ρ)

end Cert.Kernel.Hand

end
-- ==== Proof.KiLayer1.lean ====
/-
  The first layer's kernel region, read at whatever the core's buffers hold when the region is entered.
  The grid has eight points. At the first point the body multiplies the whole feature array by the first
  weight matrix and keeps the 4096 × 128 product in a scratch buffer; at every point (the first included)
  it takes a 512-row slab of the first adjacency matrix, the scratch, the bias row and the second weight
  matrix and stores one 512 × 128 block:  max (slab · scratch + b1, 0) · W2.  The later points never store
  into the scratch, so from the second point on the scratch holds one fixed array — what the first point
  left — and the region's invariant says exactly that.
-/
import proofs.«138342_g9079560864557_cont_9to1_m_1012_20_alg».proof.Proof.Gen.KernelIdeal.Launch
import proofs.«138342_g9079560864557_cont_9to1_m_1012_20_alg».proof.Proof.Gen.KernelIdeal.Skeleton
import proofs.«138342_g9079560864557_cont_9to1_m_1012_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch on the grid coordinate -/

/-- The body's one conditional: "this is grid point 0", as the body computes it from the coordinate. -/
abbrev cond0 (i : grid0.Coords) : Prop :=
  (Scalar.cmpi .ne (Scalar.extui (Scalar.cmpi .eq (BitVec.ofNat 32 (i 0).val) 0#32)) 0#32) = 1#1
/-- It holds at the first point only — decided over the eight points. -/
theorem hcond0 : ∀ t : Fin cfg0.N, cond0 (grid0.coords t) ↔ t.val % 8 = 0 :=
  (by decide +kernel : ∀ t : Fin grid0.N, cond0 (grid0.coords t) ↔ t.val % 8 = 0)

/-! ## The memrefs the body is called with -/

abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- The scratch operand: a whole scoped buffer of the kernel's own. -/
abbrev scM0 : Memref sig .tc .vmem S4096x128 .f32 := Memref.whole cc0_scratch0
/-- One staging buffer of the output window, and the scratch, as views through which contents are stated. -/
abbrev VO0 : View sig .tc .vmem S512x128 .f32 := (Memref.whole cc0_stg5_0 : Memref sig .tc .vmem S512x128 .f32).view
abbrev VS0 : View sig .tc .vmem S4096x128 .f32 := scM0.view

/-- The scoped buffers of the core that are neither this region's staging buffers nor its scratch, each at
    some contents: the second region's eight staging buffers. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the region: the scratch at anything, those other scoped buffers, the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-! ## The body's two runs: the pieces each buffer ends with are found by running it -/

set_option maxHeartbeats 4000000 in
/-- AT THE FIRST POINT (the conditional taken): the inputs at their contents, output block and scratch at anything;
    the body ends with the inputs as they were, the scratch with its pieces written and the output block with its. -/
noncomputable def kernelRunA (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i)
    (x0 : Vec F S4096x128 .f32) (x1 : Vec F S1x512x4096 .f32) (x2 : Vec F S128x128 .f32) (x3 : Vec F S1x128 .f32) (x4 : Vec F S128x128 .f32) :
    Σ' (L5 : List (View.Piece (Elt F) S512x128 .f32)), { LS : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__layer1_kernel i arg1 harg1 arg2 harg2 arg3 harg3 arg4 harg4 arg5 harg5 arg6 harg6 arg7 harg7) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

set_option maxHeartbeats 4000000 in
/-- AT A LATER POINT (the conditional not taken): the inputs at their contents, the scratch at contents `xs`, the
    output block at anything; the body ends with inputs and scratch as they were and the output block with its
    pieces written. -/
noncomputable def kernelRunB (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : ¬cond0 i)
    (x0 : Vec F S4096x128 .f32) (x1 : Vec F S1x512x4096 .f32) (x2 : Vec F S128x128 .f32) (x3 : Vec F S1x128 .f32) (x4 : Vec F S128x128 .f32) (xs : Vec F S4096x128 .f32) :
    { L5 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__layer1_kernel i arg1 harg1 arg2 harg2 arg3 harg3 arg4 harg4 arg5 harg5 arg6 harg6 arg7 harg7) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

/-! ## What the buffers hold after each run -/

theorem coverA (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i) (x0 : Vec F S4096x128 .f32) (x1 : Vec F S1x512x4096 .f32) (x2 : Vec F S128x128 .f32) (x3 : Vec F S1x128 .f32) (x4 : Vec F S128x128 .f32) (y : S512x128.Idx) :
    ∃ pc ∈ (kernelRunA c i arg1 harg1 arg2 harg2 arg3 harg3 arg4 harg4 arg5 harg5 arg6 harg6 arg7 harg7 hc x0 x1 x2 x3 x4).1, y ∈ pc.1.set :=
  View.cover_of_tiledL (kernelRunA c i arg1 harg1 arg2 harg2 arg3 harg3 arg4 harg4 arg5 harg5 arg6 harg6 arg7 harg7 hc x0 x1 x2 x3 x4).1 S512x128.size (by sl_kernel_rfl) y

/-- The output block after the first point's run: its pieces read back. -/
def outA (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i) (x0 : Vec F S4096x128 .f32) (x1 : Vec F S1x512x4096 .f32) (x2 : Vec F S128x128 .f32) (x3 : Vec F S1x128 .f32) (x4 : Vec F S128x128 .f32) : Vec F S512x128 .f32 :=
  VO0.read (Elt F) (VO0.writes (Elt F) VO0.junk (kernelRunA c i arg1 harg1 arg2 harg2 arg3 harg3 arg4 harg4 arg5 harg5 arg6 harg6 arg7 harg7 hc x0 x1 x2 x3 x4).1)

theorem scoverA (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i) (x0 : Vec F S4096x128 .f32) (x1 : Vec F S1x512x4096 .f32) (x2 : Vec F S128x128 .f32) (x3 : Vec F S1x128 .f32) (x4 : Vec F S128x128 .f32) (y : S4096x128.Idx) :
    ∃ pc ∈ (kernelRunA c i arg1 harg1 arg2 harg2 arg3 harg3 arg4 harg4 arg5 harg5 arg6 harg6 arg7 harg7 hc x0 x1 x2 x3 x4).2.1, y ∈ pc.1.set :=
  View.cover_of_tiledL (kernelRunA c i arg1 harg1 arg2 harg2 arg3 harg3 arg4 harg4 arg5 harg5 arg6 harg6 arg7 harg7 hc x0 x1 x2 x3 x4).2.1 S4096x128.size (by sl_kernel_rfl) y

/-- The scratch after the first point's run: its pieces read back. -/
def soutA (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i) (x0 : Vec F S4096x128 .f32) (x1 : Vec F S1x512x4096 .f32) (x2 : Vec F S128x128 .f32) (x3 : Vec F S1x128 .f32) (x4 : Vec F S128x128 .f32) : Vec F S4096x128 .f32 :=
  VS0.read (Elt F) (VS0.writes (Elt F) VS0.junk (kernelRunA c i arg1 harg1 arg2 harg2 arg3 harg3 arg4 harg4 arg5 harg5 arg6 harg6 arg7 harg7 hc x0 x1 x2 x3 x4).2.1)

theorem coverB (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : ¬cond0 i) (x0 : Vec F S4096x128 .f32) (x1 : Vec F S1x512x4096 .f32) (x2 : Vec F S128x128 .f32) (x3 : Vec F S1x128 .f32) (x4 : Vec F S128x128 .f32) (xs : Vec F S4096x128 .f32) (y : S512x128.Idx) :
    ∃ pc ∈ (kernelRunB c i arg1 harg1 arg2 harg2 arg3 harg3 arg4 harg4 arg5 harg5 arg6 harg6 arg7 harg7 hc x0 x1 x2 x3 x4 xs).1, y ∈ pc.1.set :=
  View.cover_of_tiledL (kernelRunB c i arg1 harg1 arg2 harg2 arg3 harg3 arg4 harg4 arg5 harg5 arg6 harg6 arg7 harg7 hc x0 x1 x2 x3 x4 xs).1 S512x128.size (by sl_kernel_rfl) y

/-- The output block after a later point's run: its pieces read back. -/
def outB (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : ¬cond0 i) (x0 : Vec F S4096x128 .f32) (x1 : Vec F S1x512x4096 .f32) (x2 : Vec F S128x128 .f32) (x3 : Vec F S1x128 .f32) (x4 : Vec F S128x128 .f32) (xs : Vec F S4096x128 .f32) : Vec F S512x128 .f32 :=
  VO0.read (Elt F) (VO0.writes (Elt F) VO0.junk (kernelRunB c i arg1 harg1 arg2 harg2 arg3 harg3 arg4 harg4 arg5 harg5 arg6 harg6 arg7 harg7 hc x0 x1 x2 x3 x4 xs).1)

/-- The first grid point. -/
abbrev p00 : Fin cfg0.N := t0_0

theorem p00_mod : (p00).val % 8 = 0 := rfl

/-- THE CARRIED ARRAY: what the first point leaves in the scratch — every later point finds exactly this. -/
def scr0 (c : Dev nD) : Vec F S4096x128 .f32 :=
  soutA c (grid0.coords p00) (ms0_0 p00) (hs0_0 p00) (ms0_1 p00) (hs0_1 p00) (ms0_2 p00) (hs0_2 p00) (ms0_3 p00) (hs0_3 p00) (ms0_4 p00) (hs0_4 p00) (ms0_5 p00) (hs0_5 p00) scM0 (Memref.isWhole_whole _) ((hcond0 p00).mpr p00_mod) (iblk0 V c 0 p00) (iblk0 V c 1 p00) (iblk0 V c 2 p00) (iblk0 V c 3 p00) (iblk0 V c 4 p00)

/-- The output block after the body at point `t`: the first point's run, or a later point's over the carried array. -/
def outAt0 (c : Dev nD) (t : Fin cfg0.N) : Vec F S512x128 .f32 :=
  if h : t.val % 8 = 0 then
    outA c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t) (iblk0 V c 4 t)
  else
    outB c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (iblk0 V c 4 t) (scr0 V c)

theorem outAt0_A (c : Dev nD) (t : Fin cfg0.N) (h : t.val % 8 = 0) :
    outAt0 V c t = outA c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t) (iblk0 V c 4 t) := dif_pos h
theorem outAt0_B (c : Dev nD) (t : Fin cfg0.N) (h : ¬t.val % 8 = 0) :
    outAt0 V c t = outB c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (iblk0 V c 4 t) (scr0 V c) := dif_neg h

/-- The region's invariant before position `n`: before the first point what the launch hands over (scratch at
    anything); afterwards the scratch at the carried array, the other scoped buffers and the generator register. -/
def Phi0 (c : Dev nD) (n : ℕ) : sProp 𝕄 :=
  if n = 0 then Pipeline.ΦA spec0 c
  else iprop(iprop(owns (c : Thread nD τ) scM0 fullShare (scr0 V c) ∗ rest0 c) ∗ (∃ r, prngReg c r))

theorem Phi0_zero (c : Dev nD) : Phi0 V c 0 = Pipeline.ΦA spec0 c := if_pos rfl
theorem Phi0_pos (c : Dev nD) (n : ℕ) (hn : n ≠ 0) :
    Phi0 V c n = iprop(iprop(owns (c : Thread nD τ) scM0 fullShare (scr0 V c) ∗ rest0 c) ∗ (∃ r, prngReg c r)) := if_neg hn

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt0 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) : (dat0 V c).Φ t.succ = Phi0 V c (t.val + 1) := by
  dsimp only [dat0]; simp only [Fin.val_succ]

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4000000 in
/-- The body at any point. The inputs' memrefs hold their blocks. At the first point the invariant hands over the
    scratch at anything and takes it back at the carried array (the run's pieces cover it); at a later point it
    hands the scratch over at the carried array and takes it back unchanged. The output block's pieces cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, Phi_castSucc0, Phi_succ0,
    Phi0_pos V c (t.val + 1) (Nat.succ_ne_zero _)]
  have hN : t.val < 8 := lt_of_lt_of_eq t.isLt (show cfg0.N = 8 from N_0)
  by_cases h0 : t.val % 8 = 0
  · have ht : t = p00 := Fin.ext (by show t.val = 0; omega)
    subst ht
    rw [show Phi0 V c (p00 : Fin cfg0.N).val = Pipeline.ΦA spec0 c from Phi0_zero V c, PhiA0_eq, outAt0_A V c p00 h0]
    unfold scr0 outA soutA; (try dsimp only)
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply ((kernelRunA c (grid0.coords p00) _ _ _ _ _ _ _ _ _ _ _ _ _ _ ((hcond0 p00).mpr h0) (iblk0 V c 0 p00) (iblk0 V c 1 p00) (iblk0 V c 2 p00) (iblk0 V c 3 p00) (iblk0 V c 4 p00)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hr Hg]
    · isplitl [HS Hr]
      · isplitl [HS]
        · unfold owns; iexists _; isplitr
          swap; · iexact HS
          ipureintro; exact View.read_writes_of_cover _ _ _ _ _ (scoverA c _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _ _ _)
  · have hz : t.val ≠ 0 := fun e => h0 (by rw [e])
    rw [Phi0_pos V c t.val hz, outAt0_B V c t h0]
    unfold outB; (try dsimp only)
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ _ _ (fun hc => h0 ((hcond0 t).mp hc)) (iblk0 V c 0 t) (iblk0 V c 1 t) (iblk0 V c 2 t) (iblk0 V c 3 t) (iblk0 V c 4 t) (scr0 V c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, Phi0_zero]
  try exact Idealize.SL.BI.Entails.refl _

/-- After the last point the invariant gives back what the launch handed over: the carried array is forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 8 := N_0; omega), PhiA0_eq]
  iintro ⟨⟨HS, Hr⟩, Hg⟩
  isplitl [HS Hr]
  · isplitl [HS]
    · iexists _; iexact HS
    iexact Hr
  iexact Hg

end Region0

end Cert.KernelIdeal.Hand

end
-- ==== Proof.KiLayer2.lean ====
/-
  The second layer's kernel region, read at whatever the core's buffers hold when the region is entered.
  At each of the eight grid points the body takes the whole 4096 × 128 array handed over by the first layer,
  a 512-row slab of the second adjacency matrix, the bias row, the output weights and the output bias, and
  stores one 512 × 40 block:  max (slab · hw + b2, 0) · Wout + bout.  Nothing is kept between points, so the
  region's invariant is just the scoped buffers it does not stage and the generator register, untouched.
-/
import proofs.«138342_g9079560864557_cont_9to1_m_1012_20_alg».proof.Proof.Gen.KernelIdeal.Launch
import proofs.«138342_g9079560864557_cont_9to1_m_1012_20_alg».proof.Proof.Gen.KernelIdeal.Skeleton
import proofs.«138342_g9079560864557_cont_9to1_m_1012_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's whole-buffer rectangles -/

abbrev r1H : Rect S4096x128 := Rect.unit (s := S4096x128) ![0, 0] S4096x128.size inb_S4096x128_S4096x128_0_0
abbrev r1A : Rect S1x512x4096 := Rect.unit (s := S1x512x4096) ![0, 0, 0] S1x512x4096.size inb_S1x512x4096_S1x512x4096_0_0_0
abbrev r1B : Rect S1x128 := Rect.unit (s := S1x128) ![0, 0] S1x128.size inb_S1x128_S1x128_0_0
abbrev r1W : Rect S128x40 := Rect.unit (s := S128x40) ![0, 0] S128x40.size inb_S128x40_S128x40_0_0
abbrev r1C : Rect S1x40 := Rect.unit (s := S1x40) ![0, 0] S1x40.size inb_S1x40_S1x40_0_0
abbrev r1O : Rect S512x40 := Rect.unit (s := S512x40) ![0, 0] S512x40.size inb_S512x40_S512x40_0_0

/-- The output block after the body, from the five input blocks: its one store, the payload of the loads. -/
def out1_5 (x0 : Vec F S4096x128 .f32) (x1 : Vec F S1x512x4096 .f32) (x2 : Vec F S1x128 .f32) (x3 : Vec F S128x40 .f32)
    (x4 : Vec F S1x40 .f32) : Vec F S512x40 .f32 :=
  View.canon [⟨r1O, k1_pay1 (View.ld x1 r1A) (View.ld x0 r1H) (View.ld x2 r1B) (View.ld x3 r1W) (View.ld x4 r1C)⟩]

/-- The one store covers the block. -/
theorem cover1_5 (p0 : Vec F S512x40 .f32) (y : S512x40.Idx) :
    ∃ pc ∈ ([⟨r1O, p0⟩] : List (View.Piece (Elt F) S512x40 .f32)), y ∈ pc.1.set :=
  View.cover_of_tiled [⟨r1O, p0⟩] S512x40.size (by rfl) y

set_option maxHeartbeats 2000000 in
/-- The body on whole staging memrefs, the inputs' at read contents and the output's at anything, runs to the
    continuation holding the inputs' as they were and the output's at `out1_5` of the inputs'. -/
theorem sound_kernel1 (c : Dev nD) (E : Set ℕ) (i : grid1.Coords)
    (arg1 : Memref sig .tc .vmem S4096x128 .f32) (harg1 : arg1.IsWhole) (arg2 : Memref sig .tc .vmem S1x512x4096 .f32) (harg2 : arg2.IsWhole)
    (arg3 : Memref sig .tc .vmem S1x128 .f32) (harg3 : arg3.IsWhole) (arg4 : Memref sig .tc .vmem S128x40 .f32) (harg4 : arg4.IsWhole)
    (arg5 : Memref sig .tc .vmem S1x40 .f32) (harg5 : arg5.IsWhole) (arg6 : Memref sig .tc .vmem S512x40 .f32) (harg6 : arg6.IsWhole)
    (x0 : Vec F S4096x128 .f32) (x1 : Vec F S1x512x4096 .f32) (x2 : Vec F S1x128 .f32) (x3 : Vec F S128x40 .f32) (x4 : Vec F S1x40 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__layer2_kernel i arg1 harg1 arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The region's proof data -/

/-- After the body at point `t` each input's buffer holds its block and the output's the block computed from
    them; the invariant is the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KiRun.lean ====
/-
  The whole program as three segments in order — the three host reshapes of the bias vectors, the first
  layer's region, the second layer's region — with the core's buffer contents named at every boundary:
  launch contents, then the reshapes applied, then the first region's arrays at what its write-backs leave,
  then the second region's. Every weakly fair execution terminates, nothing faults, and every unscoped buffer
  ends at the last boundary's contents: the arguments as launched, the result at the second region's array.
-/
import proofs.«138342_g9079560864557_cont_9to1_m_1012_20_alg».proof.Proof.KiLayer1
import proofs.«138342_g9079560864557_cont_9to1_m_1012_20_alg».proof.Proof.KiLayer2
import proofs.«138342_g9079560864557_cont_9to1_m_1012_20_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the three reshapes (the first region's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- The reshapes write none of the eight arguments. -/
theorem W1_arg (c : Dev nD) (r : Ref sig .tc) (h : r ∉ hostOps0_W) : W1 m c (Proc.devRef .tc r) = m ((c : Thread nD τ).loc r) :=
  (V1_of m c r h).trans rfl

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (U1 m) c).arrAt_in 0 rfl _).trans (A_eq0 (U1 m) c 0))
    _ = m ((c : Thread nD τ).loc main_arg0) := W1_arg m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (U2 m) c).arrAt_in 1 rfl _).trans (A_eq1 (U2 m) c 1))
    _ = W1 m c (Proc.devRef .tc main_arg1) := (W2_arr m c 1).trans (((dat0 (U1 m) c).arrAt_in 1 rfl _).trans (A_eq0 (U1 m) c 1))
    _ = m ((c : Thread nD τ).loc main_arg1) := W1_arg m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (U1 m) c).arrAt_in 2 rfl _).trans (A_eq0 (U1 m) c 2))
    _ = m ((c : Thread nD τ).loc main_arg2) := W1_arg m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_arg m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (U1 m) c).arrAt_in 4 rfl _).trans (A_eq0 (U1 m) c 4))
    _ = m ((c : Thread nD τ).loc main_arg4) := W1_arg m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_arg m c main_arg5 (by decide)
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 3).trans (((dat1 (U2 m) c).arrAt_in 3 rfl _).trans (A_eq1 (U2 m) c 3))
    _ = W1 m c (Proc.devRef .tc main_arg6) := W2_of_ne m c main_arg6 (by decide)
    _ = m ((c : Thread nD τ).loc main_arg6) := W1_arg m c main_arg6 (by decide)
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = m ((c : Thread nD τ).loc main_arg7) := W1_arg m c main_arg7 (by decide)
/-- The result buffer ends at the second region's output array. -/
theorem W3_main_v4 (c : Dev nD) : W3 m c (Proc.devRef .tc main_v4) = (dat1 (U2 m) c).arrAt 5 cfg1.N := W3_arr m c 5

/-! ## The proof data family and the thread state -/

abbrev adm' : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every segment: the generator register at some state; nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first layer's region: entered from every unscoped buffer at `W1`, left at `W2`. Its arrays split out of the
    unscoped buffers and put back at the exit contents; the generator register into the invariant and out. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (U1 m) c)
    show (_ : sProp 𝕄) ⊢ _
    unfold Pipeline.ΦA
    iintro ⟨Hp, -, Hr⟩
    isplitl [Hr]; · iexact Hr
    iexact Hp
  hout c := by
    refine BI.Entails.trans (hout0 (U1 m) c) ?_
    show (_ : sProp 𝕄) ⊢ _
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at `W2`, left at `W3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩) (run_all m ρ)

end Cert.KernelIdeal.Hand

end
-- ==== Proof.GcnSpec.lean ====
/-
  The two-layer dense graph convolution as one function of its eight arrays, entry by entry, over the
  extended reals:

      proj = x · W1            h1 = max (A₀ · proj + b1, 0)        hw  = h1 · W2
      h2   = max (A₁ · hw + b2, 0)                                  out = h2 · Wout + bout

  A₀ and A₁ are the two 4096 × 4096 slabs of the stacked adjacency array, every product is a plain
  finite sum over the contracted axis, and the zero against which the maximum is taken is the float
  word of +0.0 (both programs take that same word, so its value is never needed).
-/
import Idealize.ShloMosaic.PureOps.Ideal
import Idealize.ShloMosaic.Lib.ValueIdx

noncomputable section

namespace Cert.Gcn

open Idealize.ShloMosaic Idealize.ShloMosaic.ValueIdx

/-- An a × b array of extended reals. -/
abbrev Mat (a b : Nat) : Type := (⟨2, ![a, b]⟩ : Shape).Idx → EReal
/-- A length-a array of extended reals. -/
abbrev Row (a : Nat) : Type := (⟨1, ![a]⟩ : Shape).Idx → EReal
/-- The two stacked 4096 × 4096 adjacency matrices. -/
abbrev Adj : Type := (⟨3, ![2, 4096, 4096]⟩ : Shape).Idx → EReal

/-- The float word of +0.0 as an extended real. -/
def zeroW : EReal := Ideal.ofBits .f32 0x00000000#32

/-- proj = x · W1, at row r and column j. -/
def proj (x : Mat 4096 128) (W1 : Mat 128 128) (r : Fin 4096) (j : Fin 128) : EReal :=
  ∑ q : Fin 128, x (ix2 r q) * W1 (ix2 q j)

/-- h1 = max (A₀ · proj + b1, 0). -/
def h1 (x : Mat 4096 128) (adjs : Adj) (W1 : Mat 128 128) (b1 : Row 128) (r : Fin 4096) (j : Fin 128) : EReal :=
  max ((∑ q : Fin 4096, adjs (ix3 (0 : Fin 2) r q) * proj x W1 q j) + b1 (ix1 j)) zeroW

/-- hw = h1 · W2: what the first layer hands to the second. -/
def hw (x : Mat 4096 128) (adjs : Adj) (W1 : Mat 128 128) (b1 : Row 128) (W2 : Mat 128 128)
    (r : Fin 4096) (j : Fin 128) : EReal :=
  ∑ q : Fin 128, h1 x adjs W1 b1 r q * W2 (ix2 q j)

/-- h2 = max (A₁ · hw + b2, 0). -/
def h2 (x : Mat 4096 128) (adjs : Adj) (W1 : Mat 128 128) (b1 : Row 128) (W2 : Mat 128 128) (b2 : Row 128)
    (r : Fin 4096) (j : Fin 128) : EReal :=
  max ((∑ q : Fin 4096, adjs (ix3 (1 : Fin 2) r q) * hw x adjs W1 b1 W2 q j) + b2 (ix1 j)) zeroW

/-- out = h2 · Wout + bout. -/
def out (x : Mat 4096 128) (adjs : Adj) (W1 : Mat 128 128) (b1 : Row 128) (W2 : Mat 128 128) (b2 : Row 128)
    (Wout : Mat 128 40) (bout : Row 40) (r : Fin 4096) (j : Fin 40) : EReal :=
  (∑ q : Fin 128, h2 x adjs W1 b1 W2 b2 r q * Wout (ix2 q j)) + bout (ix1 j)

/-- The second layer alone, from ANY 4096 × 128 array `g` standing where hw stands: the entry of
    max (A₁ · g + b2, 0) · Wout + bout. (`out` is this at `g = hw`.) -/
def layer2 (g : Fin 4096 → Fin 128 → EReal) (adjs : Adj) (b2 : Row 128) (Wout : Mat 128 40) (bout : Row 40)
    (r : Fin 4096) (j : Fin 40) : EReal :=
  (∑ q : Fin 128, max ((∑ l : Fin 4096, adjs (ix3 (1 : Fin 2) r l) * g l q) + b2 (ix1 q)) zeroW * Wout (ix2 q j))
    + bout (ix1 j)

theorem out_eq_layer2 (x : Mat 4096 128) (adjs : Adj) (W1 : Mat 128 128) (b1 : Row 128) (W2 : Mat 128 128)
    (b2 : Row 128) (Wout : Mat 128 40) (bout : Row 40) (r : Fin 4096) (j : Fin 40) :
    out x adjs W1 b1 W2 b2 Wout bout r j = layer2 (hw x adjs W1 b1 W2) adjs b2 Wout bout r j := rfl

/-- The first layer alone, from ANY 4096 × 128 array `p` standing where proj stands: the entry of
    max (A₀ · p + b1, 0) · W2. (`hw` is this at `p = proj`.) -/
def layer1 (p : Fin 4096 → Fin 128 → EReal) (adjs : Adj) (b1 : Row 128) (W2 : Mat 128 128)
    (r : Fin 4096) (j : Fin 128) : EReal :=
  ∑ q : Fin 128, max ((∑ l : Fin 4096, adjs (ix3 (0 : Fin 2) r l) * p l q) + b1 (ix1 q)) zeroW * W2 (ix2 q j)

theorem hw_eq_layer1 (x : Mat 4096 128) (adjs : Adj) (W1 : Mat 128 128) (b1 : Row 128) (W2 : Mat 128 128)
    (r : Fin 4096) (j : Fin 128) :
    hw x adjs W1 b1 W2 r j = layer1 (proj x W1) adjs b1 W2 r j := rfl

end Cert.Gcn

end
-- ==== Proof.GcnPay.lean ====
/-
  The three kernel payloads read entry by entry at the extended reals: each is the plain finite-sum
  formula of the specification over the values the body loads.
-/
import proofs.«138342_g9079560864557_cont_9to1_m_1012_20_alg».proof.Proof.GcnSpec
import proofs.«138342_g9079560864557_cont_9to1_m_1012_20_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx Cert.KernelIdeal Cert.KernelIdeal.Gen

/-! The 4096 × 128 by 128 × 128 product: where its two operands are read. -/

theorem matmul_x_W1_lhs0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
theorem matmul_x_W1_lhs1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem matmul_x_W1_rhs0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem matmul_x_W1_rhs1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The 4096 × 128 by 128 × 128 product into the zero array, at row r and column j: the sum over the
    contracted axis of the products of the entries. -/
theorem matmul_x_W1 (A : FVec Ideal S4096x128 .f32) (B : FVec Ideal S128x128 .f32) (r : Fin 4096) (j : Fin 128) :
    matmul dot_S4096x128_S128x128_S4096x128_1_0_0_1_n_n none A B (constant (F := Ideal) S4096x128 .f32 0x00000000#32) (ix2 r j)
      = ∑ q : Fin 128, A (ix2 r q) * B (ix2 q j) := by
  refine (Ideal.matmul_constant_zero_apply dot_S4096x128_S128x128_S4096x128_1_0_0_1_n_n none A B (ix2 r j)).trans ?_
  rw [← Equiv.sum_comp (contrEquiv1 dot_S4096x128_S128x128_S4096x128_1_0_0_1_n_n 128 rfl rfl).symm]
  refine Finset.sum_congr rfl fun q _ => ?_
  have hq := contrEquiv1_symm_val dot_S4096x128_S128x128_S4096x128_1_0_0_1_n_n 128 rfl rfl q
  have el : dot_S4096x128_S128x128_S4096x128_1_0_0_1_n_n.lhsIdx (ix2 r j) ((contrEquiv1 dot_S4096x128_S128x128_S4096x128_1_0_0_1_n_n 128 rfl rfl).symm q) = ix2 r q :=
    funext fun a => Fin.ext (by
      match a with
      | ⟨0, _⟩ => exact matmul_x_W1_lhs0 _ _
      | ⟨1, _⟩ => exact (matmul_x_W1_lhs1 _ _).trans hq)
  have er : dot_S4096x128_S128x128_S4096x128_1_0_0_1_n_n.rhsIdx (ix2 r j) ((contrEquiv1 dot_S4096x128_S128x128_S4096x128_1_0_0_1_n_n 128 rfl rfl).symm q) = ix2 q j :=
    funext fun a => Fin.ext (by
      match a with
      | ⟨0, _⟩ => exact (matmul_x_W1_rhs0 _ _).trans hq
      | ⟨1, _⟩ => exact matmul_x_W1_rhs1 _ _)
  rw [el, er]

/-! The 512 × 4096 by 4096 × 128 product: where its two operands are read. -/

theorem matmul_A_G_lhs0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl
theorem matmul_A_G_lhs1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem matmul_A_G_rhs0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem matmul_A_G_rhs1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-- The 512 × 4096 by 4096 × 128 product into the zero array, at row r and column j: the sum over the
    contracted axis of the products of the entries. -/
theorem matmul_A_G (A : FVec Ideal S512x4096 .f32) (B : FVec Ideal S4096x128 .f32) (r : Fin 512) (j : Fin 128) :
    matmul dot_S512x4096_S4096x128_S512x128_1_0_0_1_n_n none A B (constant (F := Ideal) S512x128 .f32 0x00000000#32) (ix2 r j)
      = ∑ q : Fin 4096, A (ix2 r q) * B (ix2 q j) := by
  refine (Ideal.matmul_constant_zero_apply dot_S512x4096_S4096x128_S512x128_1_0_0_1_n_n none A B (ix2 r j)).trans ?_
  rw [← Equiv.sum_comp (contrEquiv1 dot_S512x4096_S4096x128_S512x128_1_0_0_1_n_n 4096 rfl rfl).symm]
  refine Finset.sum_congr rfl fun q _ => ?_
  have hq := contrEquiv1_symm_val dot_S512x4096_S4096x128_S512x128_1_0_0_1_n_n 4096 rfl rfl q
  have el : dot_S512x4096_S4096x128_S512x128_1_0_0_1_n_n.lhsIdx (ix2 r j) ((contrEquiv1 dot_S512x4096_S4096x128_S512x128_1_0_0_1_n_n 4096 rfl rfl).symm q) = ix2 r q :=
    funext fun a => Fin.ext (by
      match a with
      | ⟨0, _⟩ => exact matmul_A_G_lhs0 _ _
      | ⟨1, _⟩ => exact (matmul_A_G_lhs1 _ _).trans hq)
  have er : dot_S512x4096_S4096x128_S512x128_1_0_0_1_n_n.rhsIdx (ix2 r j) ((contrEquiv1 dot_S512x4096_S4096x128_S512x128_1_0_0_1_n_n 4096 rfl rfl).symm q) = ix2 q j :=
    funext fun a => Fin.ext (by
      match a with
      | ⟨0, _⟩ => exact (matmul_A_G_rhs0 _ _).trans hq
      | ⟨1, _⟩ => exact matmul_A_G_rhs1 _ _)
  rw [el, er]

/-! The 512 × 128 by 128 × 128 product: where its two operands are read. -/

theorem matmul_h_W2_lhs0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl
theorem matmul_h_W2_lhs1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem matmul_h_W2_rhs0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem matmul_h_W2_rhs1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The 512 × 128 by 128 × 128 product into the zero array, at row r and column j: the sum over the
    contracted axis of the products of the entries. -/
theorem matmul_h_W2 (A : FVec Ideal S512x128 .f32) (B : FVec Ideal S128x128 .f32) (r : Fin 512) (j : Fin 128) :
    matmul dot_S512x128_S128x128_S512x128_1_0_0_1_n_n none A B (constant (F := Ideal) S512x128 .f32 0x00000000#32) (ix2 r j)
      = ∑ q : Fin 128, A (ix2 r q) * B (ix2 q j) := by
  refine (Ideal.matmul_constant_zero_apply dot_S512x128_S128x128_S512x128_1_0_0_1_n_n none A B (ix2 r j)).trans ?_
  rw [← Equiv.sum_comp (contrEquiv1 dot_S512x128_S128x128_S512x128_1_0_0_1_n_n 128 rfl rfl).symm]
  refine Finset.sum_congr rfl fun q _ => ?_
  have hq := contrEquiv1_symm_val dot_S512x128_S128x128_S512x128_1_0_0_1_n_n 128 rfl rfl q
  have el : dot_S512x128_S128x128_S512x128_1_0_0_1_n_n.lhsIdx (ix2 r j) ((contrEquiv1 dot_S512x128_S128x128_S512x128_1_0_0_1_n_n 128 rfl rfl).symm q) = ix2 r q :=
    funext fun a => Fin.ext (by
      match a with
      | ⟨0, _⟩ => exact matmul_h_W2_lhs0 _ _
      | ⟨1, _⟩ => exact (matmul_h_W2_lhs1 _ _).trans hq)
  have er : dot_S512x128_S128x128_S512x128_1_0_0_1_n_n.rhsIdx (ix2 r j) ((contrEquiv1 dot_S512x128_S128x128_S512x128_1_0_0_1_n_n 128 rfl rfl).symm q) = ix2 q j :=
    funext fun a => Fin.ext (by
      match a with
      | ⟨0, _⟩ => exact (matmul_h_W2_rhs0 _ _).trans hq
      | ⟨1, _⟩ => exact matmul_h_W2_rhs1 _ _)
  rw [el, er]

/-! The 512 × 128 by 128 × 40 product: where its two operands are read. -/

theorem matmul_h_Wout_lhs0 (i : S512x40.Idx) (q : dot_S512x128_S128x40_S512x40_1_0_0_1_n_n.contr.Idx) :
    (dot_S512x128_S128x40_S512x40_1_0_0_1_n_n.lhsIdx i q 0).val = (i 0).val := by
  unfold DotDims.lhsIdx
  rw [dif_neg (show ¬(0 : Fin S512x128.rank) ∈ dot_S512x128_S128x40_S512x40_1_0_0_1_n_n.lhsBatch by decide),
    dif_pos (show (0 : Fin S512x128.rank) ∈ dot_S512x128_S128x40_S512x40_1_0_0_1_n_n.lhsNonContracting by decide)]
  rfl
theorem matmul_h_Wout_lhs1 (i : S512x40.Idx) (q : dot_S512x128_S128x40_S512x40_1_0_0_1_n_n.contr.Idx) :
    (dot_S512x128_S128x40_S512x40_1_0_0_1_n_n.lhsIdx i q 1).val = (q ⟨0, by decide⟩).val :=
  dot_S512x128_S128x40_S512x40_1_0_0_1_n_n.lhsIdx_val_of_single rfl i q
theorem matmul_h_Wout_rhs0 (i : S512x40.Idx) (q : dot_S512x128_S128x40_S512x40_1_0_0_1_n_n.contr.Idx) :
    (dot_S512x128_S128x40_S512x40_1_0_0_1_n_n.rhsIdx i q 0).val = (q ⟨0, by decide⟩).val :=
  dot_S512x128_S128x40_S512x40_1_0_0_1_n_n.rhsIdx_val_of_single rfl i q
theorem matmul_h_Wout_rhs1 (i : S512x40.Idx) (q : dot_S512x128_S128x40_S512x40_1_0_0_1_n_n.contr.Idx) :
    (dot_S512x128_S128x40_S512x40_1_0_0_1_n_n.rhsIdx i q 1).val = (i 1).val := by
  unfold DotDims.rhsIdx
  rw [dif_neg (show ¬(1 : Fin S128x40.rank) ∈ dot_S512x128_S128x40_S512x40_1_0_0_1_n_n.rhsBatch by decide),
    dif_pos (show (1 : Fin S128x40.rank) ∈ dot_S512x128_S128x40_S512x40_1_0_0_1_n_n.rhsNonContracting by decide)]
  rfl

/-- The 512 × 128 by 128 × 40 product into the zero array, at row r and column j: the sum over the
    contracted axis of the products of the entries. -/
theorem matmul_h_Wout (A : FVec Ideal S512x128 .f32) (B : FVec Ideal S128x40 .f32) (r : Fin 512) (j : Fin 40) :
    matmul dot_S512x128_S128x40_S512x40_1_0_0_1_n_n none A B (constant (F := Ideal) S512x40 .f32 0x00000000#32) (ix2 r j)
      = ∑ q : Fin 128, A (ix2 r q) * B (ix2 q j) := by
  refine (Ideal.matmul_constant_zero_apply dot_S512x128_S128x40_S512x40_1_0_0_1_n_n none A B (ix2 r j)).trans ?_
  rw [← Equiv.sum_comp (contrEquiv1 dot_S512x128_S128x40_S512x40_1_0_0_1_n_n 128 rfl rfl).symm]
  refine Finset.sum_congr rfl fun q _ => ?_
  have hq := contrEquiv1_symm_val dot_S512x128_S128x40_S512x40_1_0_0_1_n_n 128 rfl rfl q
  have el : dot_S512x128_S128x40_S512x40_1_0_0_1_n_n.lhsIdx (ix2 r j) ((contrEquiv1 dot_S512x128_S128x40_S512x40_1_0_0_1_n_n 128 rfl rfl).symm q) = ix2 r q :=
    funext fun a => Fin.ext (by
      match a with
      | ⟨0, _⟩ => exact matmul_h_Wout_lhs0 _ _
      | ⟨1, _⟩ => exact (matmul_h_Wout_lhs1 _ _).trans hq)
  have er : dot_S512x128_S128x40_S512x40_1_0_0_1_n_n.rhsIdx (ix2 r j) ((contrEquiv1 dot_S512x128_S128x40_S512x40_1_0_0_1_n_n 128 rfl rfl).symm q) = ix2 q j :=
    funext fun a => Fin.ext (by
      match a with
      | ⟨0, _⟩ => exact (matmul_h_Wout_rhs0 _ _).trans hq
      | ⟨1, _⟩ => exact matmul_h_Wout_rhs1 _ _)
  rw [el, er]

/-- The first payload is x · W1, entry by entry. -/
theorem pay_proj (v16 : Vec Ideal S4096x128 .f32) (v17 : Vec Ideal S128x128 .f32) (r : Fin 4096) (j : Fin 128) :
    k0_pay1 (F := Ideal) v16 v17 (ValueIdx.ix2 r j) = ∑ q : Fin 128, v16 (ValueIdx.ix2 r q) * v17 (ValueIdx.ix2 q j) := by
  unfold k0_pay1
  rw [shapeCast_self]
  exact matmul_x_W1 v16 v17 r j

/-- What both layers share: a 512-row slab A of an adjacency matrix times a 4096 × 128 array G, plus the
    bias row b on every row, cut off below at the zero word — at row r and column q. -/
theorem relu_slab_apply (A : FVec Ideal S1x512x4096 .f32) (G : FVec Ideal S4096x128 .f32) (b : FVec Ideal S1x128 .f32)
    (r : Fin 512) (q : Fin 128) :
    maximumf
        (addf
          (matmul dot_S512x4096_S4096x128_S512x128_1_0_0_1_n_n none
            (shapeCast S512x4096 A shapeCasts_S1x512x4096_S512x4096) G
            (constant (F := Ideal) S512x128 .f32 0x00000000#32))
          (broadcastTo S512x128 (shapeCast S1x128 b shapeCasts_S1x128_S1x128) broadcasts_S1x128_S512x128))
        (broadcast S512x128 (Scalar.ofBits (F := Ideal) .f32 0x00000000#32)) (ix2 r q)
      = max ((∑ l : Fin 4096, A (ix3 (0 : Fin 1) r l) * G (ix2 l q)) + b (ix2 (0 : Fin 1) q)) zeroW := by
  have e1 : matmul dot_S512x4096_S4096x128_S512x128_1_0_0_1_n_n none
        (shapeCast S512x4096 A shapeCasts_S1x512x4096_S512x4096) G
        (constant (F := Ideal) S512x128 .f32 0x00000000#32) (ix2 r q)
      = ∑ l : Fin 4096, A (ix3 (0 : Fin 1) r l) * G (ix2 l q) :=
    (matmul_A_G _ G r q).trans (Finset.sum_congr rfl fun l _ =>
      congrArg (· * G (ix2 l q)) (shapeCast_1ab_ab_apply A shapeCasts_S1x512x4096_S512x4096 r l))
  have e2 : broadcastTo S512x128 (shapeCast S1x128 b shapeCasts_S1x128_S1x128) broadcasts_S1x128_S512x128 (ix2 r q)
      = b (ix2 (0 : Fin 1) q) :=
    (broadcastTo_1b_ab_apply _ broadcasts_S1x128_S512x128 r q).trans
      (congrFun (shapeCast_self b shapeCasts_S1x128_S1x128) _)
  show max (_ + _) _ = _
  rw [e1, e2]
  rfl

/-- The second payload is max (A · p + b1, 0) · W2 on the rows of one slab, entry by entry. -/
theorem pay_layer1 (v3 : Vec Ideal S1x512x4096 .f32) (v5 : Vec Ideal S4096x128 .f32) (v7 : Vec Ideal S1x128 .f32)
    (v13 : Vec Ideal S128x128 .f32) (r : Fin 512) (j : Fin 128) :
    k0_pay2 (F := Ideal) v3 v5 v7 v13 (ValueIdx.ix2 r j)
      = ∑ q : Fin 128, max ((∑ l : Fin 4096, v3 (ValueIdx.ix3 (0 : Fin 1) r l) * v5 (ValueIdx.ix2 l q))
          + v7 (ValueIdx.ix2 (0 : Fin 1) q)) Cert.Gcn.zeroW * v13 (ValueIdx.ix2 q j) := by
  unfold k0_pay2
  refine (matmul_h_W2 _ v13 r j).trans ?_
  exact Finset.sum_congr rfl fun q _ => congrArg (· * v13 (ix2 q j)) (relu_slab_apply v3 v5 v7 r q)

/-- The third payload is max (A · g + b2, 0) · Wout + bout on the rows of one slab, entry by entry. -/
theorem pay_layer2 (v0 : Vec Ideal S1x512x4096 .f32) (v2 : Vec Ideal S4096x128 .f32) (v5 : Vec Ideal S1x128 .f32)
    (v11 : Vec Ideal S128x40 .f32) (v13 : Vec Ideal S1x40 .f32) (r : Fin 512) (j : Fin 40) :
    k1_pay1 (F := Ideal) v0 v2 v5 v11 v13 (ValueIdx.ix2 r j)
      = (∑ q : Fin 128, max ((∑ l : Fin 4096, v0 (ValueIdx.ix3 (0 : Fin 1) r l) * v2 (ValueIdx.ix2 l q))
          + v5 (ValueIdx.ix2 (0 : Fin 1) q)) Cert.Gcn.zeroW * v11 (ValueIdx.ix2 q j))
        + v13 (ValueIdx.ix2 (0 : Fin 1) j) := by
  unfold k1_pay1
  have e0 : shapeCast S4096x128 v2 shapeCasts_S4096x128_S4096x128 = v2 := shapeCast_self v2 _
  have e2 : broadcastTo S512x40 (shapeCast S1x40 v13 shapeCasts_S1x40_S1x40) broadcasts_S1x40_S512x40 (ix2 r j)
      = v13 (ix2 (0 : Fin 1) j) :=
    (broadcastTo_1b_ab_apply _ broadcasts_S1x40_S512x40 r j).trans
      (congrFun (shapeCast_self v13 shapeCasts_S1x40_S1x40) _)
  show _ + _ = _
  rw [e0, e2]
  refine congrArg (· + v13 (ix2 (0 : Fin 1) j)) ?_
  refine (matmul_h_Wout _ v11 r j).trans ?_
  exact Finset.sum_congr rfl fun q _ => congrArg (· * v11 (ix2 q j)) (relu_slab_apply v0 v2 v5 r q)

end Cert.Gcn

end
-- ==== Proof.KiValue1.lean ====
/-
  What the first layer's region leaves in its output array, at the extended reals.
  Each of the eight grid points writes back one block of 512 rows. The block is the body's one store: the
  payload "max (slab · carried + b1, 0) · W2" of the point's adjacency slab, the carried scratch, the bias row
  and the second weight matrix; the carried scratch is the product "features · W1" that the first point stored
  (at the first point itself the body reads it straight back from its own store). Read entry by entry, row
  r of block t is row 512·t + r of   max (A₀ · (x · W1) + b1, 0) · W2,   and the eight blocks tile the array.
-/
import proofs.«138342_g9079560864557_cont_9to1_m_1012_20_alg».proof.Proof.KiLayer1
import proofs.«138342_g9079560864557_cont_9to1_m_1012_20_alg».proof.Proof.GcnPay
import proofs.«138342_g9079560864557_cont_9to1_m_1012_20_alg».proof.Proof.GcnSpec
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The pieces the runs found are the body's payloads of the blocks -/

section Pieces

variable {F : FTy → Type} [FloatOps F]

/-- At the first point the scratch ends at the product payload of the feature block and the first weight block. -/
theorem soutA_eq (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i) (x0 : Vec F S4096x128 .f32) (x1 : Vec F S1x512x4096 .f32) (x2 : Vec F S128x128 .f32) (x3 : Vec F S1x128 .f32) (x4 : Vec F S128x128 .f32) :
    soutA c i arg1 harg1 arg2 harg2 arg3 harg3 arg4 harg4 arg5 harg5 arg6 harg6 arg7 harg7 hc x0 x1 x2 x3 x4 = k0_pay1 x0 x2 := by
  unfold soutA
  rw [View.read_writes_eq_canon _ _ _ (scoverA c i arg1 harg1 arg2 harg2 arg3 harg3 arg4 harg4 arg5 harg5 arg6 harg6 arg7 harg7 hc x0 x1 x2 x3 x4)]
  unfold kernelRunA
  dsimp only
  sl_unfold_words
  rw [View.canon_unit_zero hz2]
  simp only [View.readAt_eq_ld, harg1.read_unread, harg3.read_unread, View.ld_unit_zero (S := S4096x128) hz2,
    View.ld_unit_zero (S := S128x128) hz2]

/-- At the first point the output block ends at the layer payload over that same product. -/
theorem outA_eq (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : cond0 i) (x0 : Vec F S4096x128 .f32) (x1 : Vec F S1x512x4096 .f32) (x2 : Vec F S128x128 .f32) (x3 : Vec F S1x128 .f32) (x4 : Vec F S128x128 .f32) :
    outA c i arg1 harg1 arg2 harg2 arg3 harg3 arg4 harg4 arg5 harg5 arg6 harg6 arg7 harg7 hc x0 x1 x2 x3 x4 = k0_pay2 x1 (k0_pay1 x0 x2) x3 x4 := by
  unfold outA
  rw [View.read_writes_eq_canon _ _ _ (coverA c i arg1 harg1 arg2 harg2 arg3 harg3 arg4 harg4 arg5 harg5 arg6 harg6 arg7 harg7 hc x0 x1 x2 x3 x4)]
  unfold kernelRunA
  dsimp only
  sl_unfold_words
  rw [View.canon_unit_zero hz2]
  simp only [View.readAt_eq_ld, harg1.read_unread, harg2.read_unread, harg3.read_unread, harg4.read_unread, harg5.read_unread,
    View.ld_unit_zero (S := S4096x128) hz2, View.ld_unit_zero (S := S128x128) hz2, View.ld_unit_zero (S := S1x128) hz2,
    View.ld_unit_zero (S := S1x512x4096) hz3, View.readCov_unit_zero (S := S4096x128) arg7.view hz2]

/-- At a later point the output block ends at the layer payload over whatever the scratch holds. -/
theorem outB_eq (c : Dev nD) (i : grid0.Coords) (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S512x128 .f32) (harg6 : arg6.IsWhole)
    (arg7 : Memref sig .tc .vmem S4096x128 .f32) (harg7 : arg7.IsWhole) (hc : ¬cond0 i) (x0 : Vec F S4096x128 .f32) (x1 : Vec F S1x512x4096 .f32) (x2 : Vec F S128x128 .f32) (x3 : Vec F S1x128 .f32) (x4 : Vec F S128x128 .f32) (xs : Vec F S4096x128 .f32) :
    outB c i arg1 harg1 arg2 harg2 arg3 harg3 arg4 harg4 arg5 harg5 arg6 harg6 arg7 harg7 hc x0 x1 x2 x3 x4 xs = k0_pay2 x1 xs x3 x4 := by
  unfold outB
  rw [View.read_writes_eq_canon _ _ _ (coverB c i arg1 harg1 arg2 harg2 arg3 harg3 arg4 harg4 arg5 harg5 arg6 harg6 arg7 harg7 hc x0 x1 x2 x3 x4 xs)]
  unfold kernelRunB
  dsimp only
  rw [View.canon_unit_zero hz2]
  simp only [View.readAt_eq_ld, harg2.read_unread, harg7.read_unread, harg4.read_unread, harg5.read_unread,
    View.ld_unit_zero (S := S4096x128) hz2, View.ld_unit_zero (S := S128x128) hz2, View.ld_unit_zero (S := S1x128) hz2,
    View.ld_unit_zero (S := S1x512x4096) hz3]

end Pieces

/-! ## The blocks, read at an index of their arrays -/

variable (V : (c : Dev nD) → (b : Ref sig .tc) → Buf (Elt Ideal) ((c : Thread nD τ).loc b))

/-- The printed index maps, decided over the eight points: the four whole windows sit at block (0, 0), the
    adjacency slab at (0, t, 0), the output block at (t, 0). -/
theorem idx0 : ∀ t : Fin cfg0.N,
    win0_0.index t (0 : Fin 2) = 0 ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of block t is row 512·t + r of the array. -/
def rowOf (t : Fin cfg0.N) (r : Fin 512) : Fin 4096 :=
  ⟨t.val * 512 + r.val, by have h1 := t.isLt; have hN : cfg0.N = 8 := N_0; have h2 := r.isLt; omega⟩

theorem blk0_0 (c : Dev nD) (t : Fin cfg0.N) (p : Fin 4096) (q : Fin 128) :
    iblk0 V c 0 t (ix2 p q) = V c main_arg0 (ix2 p q) := by
  show V c main_arg0 (((cfg0.win 0).blk t).view.emb (ix2 p q)) = _
  refine congrArg _ ?_
  obtain ⟨e0, e1, -⟩ := idx0 t
  funext a; apply Fin.ext
  match a with
  | ⟨0, _⟩ => show win0_0.index t (0 : Fin 2) * 4096 + 1 * p.val = p.val; omega
  | ⟨1, _⟩ => show win0_0.index t (1 : Fin 2) * 128 + 1 * q.val = q.val; omega

theorem blk0_1 (c : Dev nD) (t : Fin cfg0.N) (r : Fin 512) (l : Fin 4096) :
    iblk0 V c 1 t (ix3 (0 : Fin 1) r l) = V c main_arg1 (ix3 (0 : Fin 2) (rowOf t r) l) := by
  show V c main_arg1 (((cfg0.win 1).blk t).view.emb (ix3 (0 : Fin 1) r l)) = _
  refine congrArg _ ?_
  obtain ⟨-, -, e0, e1, e2, -⟩ := idx0 t
  funext a; apply Fin.ext
  match a with
  | ⟨0, _⟩ => show win0_1.index t (0 : Fin 3) * 1 + 1 * 0 = 0; omega
  | ⟨1, _⟩ => show win0_1.index t (1 : Fin 3) * 512 + 1 * r.val = t.val * 512 + r.val; omega
  | ⟨2, _⟩ => show win0_1.index t (2 : Fin 3) * 4096 + 1 * l.val = l.val; omega

theorem blk0_2 (c : Dev nD) (t : Fin cfg0.N) (p : Fin 128) (q : Fin 128) :
    iblk0 V c 2 t (ix2 p q) = V c main_arg2 (ix2 p q) := by
  show V c main_arg2 (((cfg0.win 2).blk t).view.emb (ix2 p q)) = _
  refine congrArg _ ?_
  obtain ⟨-, -, -, -, -, e0, e1, -⟩ := idx0 t
  funext a; apply Fin.ext
  match a with
  | ⟨0, _⟩ => show win0_2.index t (0 : Fin 2) * 128 + 1 * p.val = p.val; omega
  | ⟨1, _⟩ => show win0_2.index t (1 : Fin 2) * 128 + 1 * q.val = q.val; omega

theorem blk0_3 (c : Dev nD) (t : Fin cfg0.N) (p : Fin 1) (q : Fin 128) :
    iblk0 V c 3 t (ix2 p q) = V c main_v0 (ix2 p q) := by
  show V c main_v0 (((cfg0.win 3).blk t).view.emb (ix2 p q)) = _
  refine congrArg _ ?_
  obtain ⟨-, -, -, -, -, -, -, e0, e1, -⟩ := idx0 t
  funext a; apply Fin.ext
  match a with
  | ⟨0, _⟩ => show win0_3.index t (0 : Fin 2) * 1 + 1 * p.val = p.val; omega
  | ⟨1, _⟩ => show win0_3.index t (1 : Fin 2) * 128 + 1 * q.val = q.val; omega

theorem blk0_4 (c : Dev nD) (t : Fin cfg0.N) (p : Fin 128) (q : Fin 128) :
    iblk0 V c 4 t (ix2 p q) = V c main_arg4 (ix2 p q) := by
  show V c main_arg4 (((cfg0.win 4).blk t).view.emb (ix2 p q)) = _
  refine congrArg _ ?_
  obtain ⟨-, -, -, -, -, -, -, -, -, e0, e1, -⟩ := idx0 t
  funext a; apply Fin.ext
  match a with
  | ⟨0, _⟩ => show win0_4.index t (0 : Fin 2) * 128 + 1 * p.val = p.val; omega
  | ⟨1, _⟩ => show win0_4.index t (1 : Fin 2) * 128 + 1 * q.val = q.val; omega

/-! ## The carried array and the output block, entry by entry -/

/-- The bias row as the region finds it: the one row of the reshaped 1 × 128 array. -/
def b1row (c : Dev nD) : Cert.Gcn.Row 128 := fun k => V c main_v0 (ix2 (0 : Fin 1) (k 0))

/-- The first layer's array as one function of the region-entry contents. -/
def HW (c : Dev nD) : S4096x128.Idx → EReal := fun i =>
  Cert.Gcn.layer1 (Cert.Gcn.proj (V c main_arg0) (V c main_arg2)) (V c main_arg1) (b1row V c) (V c main_arg4) (i 0) (i 1)

/-- The carried scratch is features · W1. -/
theorem scr0_val (c : Dev nD) (l : Fin 4096) (q : Fin 128) :
    scr0 V c (ix2 l q) = Cert.Gcn.proj (V c main_arg0) (V c main_arg2) l q := by
  unfold scr0
  rw [soutA_eq]
  refine (Cert.Gcn.pay_proj _ _ l q).trans ?_
  unfold Cert.Gcn.proj
  refine Finset.sum_congr rfl fun k _ => ?_
  rw [blk0_0 V c p00 l k, blk0_2 V c p00 k q]

/-- The layer payload of the point's blocks over ANY array that is features · W1, entry by entry. -/
theorem layer_blocks (c : Dev nD) (t : Fin cfg0.N) (P : Vec Ideal S4096x128 .f32)
    (hP : ∀ (l : Fin 4096) (q : Fin 128), P (ix2 l q) = Cert.Gcn.proj (V c main_arg0) (V c main_arg2) l q)
    (r : Fin 512) (j : Fin 128) :
    k0_pay2 (F := Ideal) (iblk0 V c 1 t) P (iblk0 V c 3 t) (iblk0 V c 4 t) (ix2 r j)
      = Cert.Gcn.layer1 (Cert.Gcn.proj (V c main_arg0) (V c main_arg2)) (V c main_arg1) (b1row V c) (V c main_arg4) (rowOf t r) j := by
  refine (Cert.Gcn.pay_layer1 _ _ _ _ r j).trans ?_
  unfold Cert.Gcn.layer1
  simp only [hP, blk0_1 V c t, blk0_3 V c t, blk0_4 V c t]
  rfl

/-- Row r, column j of the block point t stores. -/
theorem outAt0_val (c : Dev nD) (t : Fin cfg0.N) (r : Fin 512) (j : Fin 128) :
    outAt0 V c t (ix2 r j)
      = Cert.Gcn.layer1 (Cert.Gcn.proj (V c main_arg0) (V c main_arg2)) (V c main_arg1) (b1row V c) (V c main_arg4) (rowOf t r) j := by
  by_cases h : t.val % 8 = 0
  · rw [outAt0_A V c t h, outA_eq]
    refine layer_blocks V c t _ (fun l q => ?_) r j
    refine (Cert.Gcn.pay_proj _ _ l q).trans ?_
    unfold Cert.Gcn.proj
    refine Finset.sum_congr rfl fun k _ => ?_
    rw [blk0_0 V c t l k, blk0_2 V c t k q]
  · rw [outAt0_B V c t h, outB_eq]
    exact layer_blocks V c t _ (scr0_val V c) r j

/-! ## From the blocks to the array -/

theorem emb0_5 (t : Fin cfg0.N) (r : Fin 512) (j : Fin 128) :
    ((cfg0.win 5).blk t).view.emb (ix2 r j) = ix2 (rowOf t r) j := by
  obtain ⟨-, -, -, -, -, -, -, -, -, -, -, e0, e1⟩ := idx0 t
  funext a; apply Fin.ext
  match a with
  | ⟨0, _⟩ => show win0_5.index t (0 : Fin 2) * 512 + 1 * r.val = t.val * 512 + r.val; omega
  | ⟨1, _⟩ => show win0_5.index t (1 : Fin 2) * 128 + 1 * j.val = j.val; omega

/-- What point t writes back is block t of the one function. -/
theorem flushed0_eq (c : Dev nD) (t : Fin cfg0.N) :
    (dat0 V c).flushed 5 t = ((cfg0.win 5).blk t).view.read (Elt Ideal) (HW V c) := by
  show (cfg0.win 5).cut (grid0.coords t) ((dat0 V c).after 5 t) = _
  rw [after0_5]
  funext y
  obtain ⟨r, j, rfl⟩ : ∃ (r : Fin 512) (j : Fin 128), y = ix2 r j := ⟨y 0, y 1, eq_ix2 y⟩
  show outAt0 V c t (ix2 r j) = HW V c (((cfg0.win 5).blk t).view.emb (ix2 r j))
  rw [outAt0_val V c t r j, emb0_5 t r j]
  rfl

theorem mem_blk0 (t : Fin cfg0.N) (i : S4096x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v3).slice (win0_5.rect t)).set ↔ _
  rw [View.set_slice_whole, Rect.mem_set_unit]
  exact Iff.rfl

/-- Every row lies in the block of point (row / 512). -/
theorem cover0 (i : S4096x128.Idx) :
    ∃ t : Fin cfg0.N, (cfg0.win 5).flush t = true ∧ i ∈ ((cfg0.win 5).blk t).view.set := by
  have hi0 : (i 0).val < 4096 := (i 0).isLt
  have hi1 : (i 1).val < 128 := (i 1).isLt
  have hN : cfg0.N = 8 := N_0
  obtain ⟨t, ht⟩ : ∃ t : Fin cfg0.N, t.val = (i 0).val / 512 := ⟨⟨(i 0).val / 512, by omega⟩, rfl⟩
  obtain ⟨-, -, -, -, -, -, -, -, -, -, -, e0, e1⟩ := idx0 t
  refine ⟨t, flush0_5 t, ?_⟩
  rw [mem_blk0]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 128 ≤ (i 1).val ∧ (i 1).val < win0_5.index t (1 : Fin 2) * 128 + 128; omega

/-- THE ARRAY after the region: max (A₀ · (x · W1) + b1, 0) · W2 of the region-entry contents. -/
theorem final0 (c : Dev nD) : (dat0 V c).arrAt 5 cfg0.N = HW V c :=
  (dat0 V c).arrAt_eq_of_cover 5 (HW V c) (fun t _ => flushed0_eq V c t) cover0

theorem final0_apply (c : Dev nD) (l : Fin 4096) (q : Fin 128) :
    (dat0 V c).arrAt 5 cfg0.N (ix2 l q)
      = Cert.Gcn.layer1 (Cert.Gcn.proj (V c main_arg0) (V c main_arg2)) (V c main_arg1) (b1row V c) (V c main_arg4) l q := by
  rw [final0]; rfl

end Cert.KernelIdeal.HandValue

end
-- ==== Proof.KiValue2.lean ====
/-
  The second region's output array after all eight grid points, entry by entry: each point writes one
  512-row block of  max (A₁ · g + b2, 0) · Wout + bout,  g the 4096 × 128 array the region is handed, and
  the eight blocks tile the 4096 × 40 array.
-/
import proofs.«138342_g9079560864557_cont_9to1_m_1012_20_alg».proof.Proof.KiLayer2
import proofs.«138342_g9079560864557_cont_9to1_m_1012_20_alg».proof.Proof.GcnPay
import proofs.«138342_g9079560864557_cont_9to1_m_1012_20_alg».proof.Proof.GcnSpec
import Idealize.ShloMosaic.Lib.Pipeline.Value
import Idealize.ShloMosaic.Lib.ValueIdx

noncomputable section

namespace Cert.KernelIdeal.HandValue

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block sits at grid point t: the four small operands and the handed-over array are
    whole (block index zero), the adjacency block is rows 512 t … of slab 1, the output block rows 512 t … -/
theorem idx_facts1 : ∀ t : Fin cfg1.N,
    win1_0.index t (0 : Fin 2) = 0 ∧ win1_0.index t (1 : Fin 2) = 0
    ∧ win1_1.index t (0 : Fin 3) = 1 ∧ win1_1.index t (1 : Fin 3) = t.val ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 8 := by
  have h : t.val < grid1.N := t.isLt
  rw [N_1] at h
  exact h

/-- The whole output array as one function of the arrays the region finds. -/
def G1 (c : Dev nD) : S4096x40.Idx → EReal := fun i =>
  Cert.Gcn.layer2 (fun l q => V c main_v3 (ix2 l q)) (V c main_arg1) (fun i => V c main_v1 (ix2 (0 : Fin 1) (i 0)))
    (V c main_arg6) (fun i => V c main_v2 (ix2 (0 : Fin 1) (i 0))) (i 0) (i 1)

/-! ## Each input block read where it sits in its array -/

theorem iblk1_0_apply (c : Dev nD) (t : Fin cfg1.N) (l : Fin 4096) (q : Fin 128) :
    (iblk1 V c 0 t : Vec Ideal S4096x128 .f32) (ix2 l q) = (V c main_v3 : S4096x128.Idx → EReal) (ix2 l q) := by
  obtain ⟨e00, e01, -⟩ := idx_facts1 t
  show V c main_v3 (((cfg1.win 0).blk t).view.emb (ix2 l q)) = _
  refine congrArg (V c main_v3) (funext fun a => Fin.ext ?_)
  match a with
  | ⟨0, _⟩ => show win1_0.index t (0 : Fin 2) * 4096 + 1 * l.val = l.val; omega
  | ⟨1, _⟩ => show win1_0.index t (1 : Fin 2) * 128 + 1 * q.val = q.val; omega

theorem iblk1_1_apply (c : Dev nD) (t : Fin cfg1.N) (p : Fin 512) (l : Fin 4096) (R : Fin 4096)
    (hR : R.val = t.val * 512 + p.val) :
    (iblk1 V c 1 t : Vec Ideal S1x512x4096 .f32) (ix3 (0 : Fin 1) p l)
      = (V c main_arg1 : S2x4096x4096.Idx → EReal) (ix3 (1 : Fin 2) R l) := by
  obtain ⟨-, -, e10, e11, e12, -⟩ := idx_facts1 t
  show V c main_arg1 (((cfg1.win 1).blk t).view.emb (ix3 (0 : Fin 1) p l)) = _
  refine congrArg (V c main_arg1) (funext fun a => Fin.ext ?_)
  match a with
  | ⟨0, _⟩ => show win1_1.index t (0 : Fin 3) * 1 + 1 * 0 = 1; omega
  | ⟨1, _⟩ => show win1_1.index t (1 : Fin 3) * 512 + 1 * p.val = R.val; omega
  | ⟨2, _⟩ => show win1_1.index t (2 : Fin 3) * 4096 + 1 * l.val = l.val; omega

theorem iblk1_2_apply (c : Dev nD) (t : Fin cfg1.N) (q : Fin 128) :
    (iblk1 V c 2 t : Vec Ideal S1x128 .f32) (ix2 (0 : Fin 1) q) = (V c main_v1 : S1x128.Idx → EReal) (ix2 (0 : Fin 1) q) := by
  obtain ⟨-, -, -, -, -, e20, e21, -⟩ := idx_facts1 t
  show V c main_v1 (((cfg1.win 2).blk t).view.emb (ix2 (0 : Fin 1) q)) = _
  refine congrArg (V c main_v1) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

theorem iblk1_3_apply (c : Dev nD) (t : Fin cfg1.N) (q : Fin 128) (j : Fin 40) :
    (iblk1 V c 3 t : Vec Ideal S128x40 .f32) (ix2 q j) = (V c main_arg6 : S128x40.Idx → EReal) (ix2 q j) := by
  obtain ⟨-, -, -, -, -, -, -, e30, e31, -⟩ := idx_facts1 t
  show V c main_arg6 (((cfg1.win 3).blk t).view.emb (ix2 q j)) = _
  refine congrArg (V c main_arg6) (funext fun a => Fin.ext ?_)
  match a with
  | ⟨0, _⟩ => show win1_3.index t (0 : Fin 2) * 128 + 1 * q.val = q.val; omega
  | ⟨1, _⟩ => show win1_3.index t (1 : Fin 2) * 40 + 1 * j.val = j.val; omega

theorem iblk1_4_apply (c : Dev nD) (t : Fin cfg1.N) (j : Fin 40) :
    (iblk1 V c 4 t : Vec Ideal S1x40 .f32) (ix2 (0 : Fin 1) j) = (V c main_v2 : S1x40.Idx → EReal) (ix2 (0 : Fin 1) j) := by
  obtain ⟨-, -, -, -, -, -, -, -, -, e40, e41, -⟩ := idx_facts1 t
  show V c main_v2 (((cfg1.win 4).blk t).view.emb (ix2 (0 : Fin 1) j)) = _
  refine congrArg (V c main_v2) (funext fun a => Fin.ext ?_)
  match a with
  | ⟨0, _⟩ => show win1_4.index t (0 : Fin 2) * 1 + 1 * 0 = 0; omega
  | ⟨1, _⟩ => show win1_4.index t (1 : Fin 2) * 40 + 1 * j.val = j.val; omega

/-! ## One grid point -/

/-- The body's payload over blocks that read the five arrays as stated, at an index of the output block: the
    second layer's entry at the row the block's row stands for. -/
theorem point_eq (H : S4096x128.Idx → EReal) (A : S2x4096x4096.Idx → EReal) (b2 : S1x128.Idx → EReal)
    (W : S128x40.Idx → EReal) (bo : S1x40.Idx → EReal)
    (x0 : Vec Ideal S4096x128 .f32) (x1 : Vec Ideal S1x512x4096 .f32) (x2 : Vec Ideal S1x128 .f32)
    (x3 : Vec Ideal S128x40 .f32) (x4 : Vec Ideal S1x40 .f32) (tn : Nat)
    (h0 : ∀ (l : Fin 4096) (q : Fin 128), x0 (ix2 l q) = H (ix2 l q))
    (h1 : ∀ (p : Fin 512) (l : Fin 4096) (R : Fin 4096), R.val = tn * 512 + p.val →
      x1 (ix3 (0 : Fin 1) p l) = A (ix3 (1 : Fin 2) R l))
    (h2 : ∀ q : Fin 128, x2 (ix2 (0 : Fin 1) q) = b2 (ix2 (0 : Fin 1) q))
    (h3 : ∀ (q : Fin 128) (j : Fin 40), x3 (ix2 q j) = W (ix2 q j))
    (h4 : ∀ j : Fin 40, x4 (ix2 (0 : Fin 1) j) = bo (ix2 (0 : Fin 1) j))
    (y : S512x40.Idx) (R : Fin 4096) (J : Fin 40) (hR : R.val = tn * 512 + (y 0).val) (hJ : J.val = (y 1).val) :
    k1_pay1 (F := Ideal) x1 x0 x2 x3 x4 y
      = Cert.Gcn.layer2 (fun l q => H (ix2 l q)) A (fun i => b2 (ix2 (0 : Fin 1) (i 0))) W
          (fun i => bo (ix2 (0 : Fin 1) (i 0))) R J := by
  obtain ⟨p, j, rfl⟩ : ∃ (p : Fin 512) (j : Fin 40), y = ix2 p j := ⟨y 0, y 1, eq_ix2 y⟩
  obtain rfl : J = j := Fin.ext hJ
  rw [Cert.Gcn.pay_layer2]
  unfold Cert.Gcn.layer2
  refine congrArg₂ (· + ·) (Finset.sum_congr rfl fun q _ => ?_) (h4 J)
  refine congrArg₂ (· * ·) (congrArg (max · Cert.Gcn.zeroW)
    (congrArg₂ (· + ·) (Finset.sum_congr rfl fun l _ => ?_) (h2 q))) (h3 q J)
  rw [h1 p l R hR, h0 l q]

/-- What point t writes back is block t of the whole-array function. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz2]
  simp only [View.ld_unit_zero (S := S4096x128) hz2, View.ld_unit_zero (S := S1x512x4096) hz3,
    View.ld_unit_zero (S := S1x128) hz2, View.ld_unit_zero (S := S128x40) hz2, View.ld_unit_zero (S := S1x40) hz2]
  obtain ⟨-, -, -, -, -, -, -, -, -, -, -, e50, e51⟩ := idx_facts1 t
  have ht := t_lt t
  funext y
  have hy0 : (y 0).val < 512 := (y 0).isLt
  have hy1 : (y 1).val < 40 := (y 1).isLt
  have hemb : ((cfg1.win 5).blk t).view.emb y
      = ix2 (⟨t.val * 512 + (y 0).val, by omega⟩ : Fin 4096) (⟨(y 1).val, hy1⟩ : Fin 40) := by
    funext a; apply Fin.ext
    match a with
    | ⟨0, _⟩ => show win1_5.index t (0 : Fin 2) * 512 + 1 * (y 0).val = t.val * 512 + (y 0).val; omega
    | ⟨1, _⟩ => show win1_5.index t (1 : Fin 2) * 40 + 1 * (y 1).val = (y 1).val; omega
  show k1_pay1 (F := Ideal) (iblk1 V c 1 t) (iblk1 V c 0 t) (iblk1 V c 2 t) (iblk1 V c 3 t) (iblk1 V c 4 t)
      ((cfg1.win 5).xinj (grid1.coords t) y) = G1 V c (((cfg1.win 5).blk t).view.emb y)
  rw [hemb]
  exact point_eq (V c main_v3) (V c main_arg1) (V c main_v1) (V c main_arg6) (V c main_v2)
    (iblk1 V c 0 t) (iblk1 V c 1 t) (iblk1 V c 2 t) (iblk1 V c 3 t) (iblk1 V c 4 t) t.val
    (iblk1_0_apply V c t) (fun p l R hR => iblk1_1_apply V c t p l R hR) (iblk1_2_apply V c t)
    (iblk1_3_apply V c t) (iblk1_4_apply V c t)
    ((cfg1.win 5).xinj (grid1.coords t) y) ⟨t.val * 512 + (y 0).val, by omega⟩ ⟨(y 1).val, hy1⟩ rfl rfl

/-- An index of the output array is in point t's block iff each coordinate is in the block's range. -/
theorem mem_blk1 (t : Fin cfg1.N) (i : S4096x40.Idx) :
    i ∈ ((cfg1.win 5).blk t).view.set ↔ ∀ a : Fin 2,
      win1_5.index t a * S512x40.size a ≤ (i a).val ∧ (i a).val < win1_5.index t a * S512x40.size a + S512x40.size a := by
  show i ∈ ((View.whole main_v4).slice (win1_5.rect t)).set ↔ _
  rw [View.set_slice_whole, Rect.mem_set_unit]
  exact Iff.rfl

/-- The eight blocks tile the array: row r lies in the block of point r / 512. -/
theorem cover1 (i : S4096x40.Idx) : ∃ t : Fin cfg1.N, (cfg1.win 5).flush t = true ∧ i ∈ ((cfg1.win 5).blk t).view.set := by
  have hi0 : (i 0).val < 4096 := (i 0).isLt
  have hi1 : (i 1).val < 40 := (i 1).isLt
  have hN : (i 0).val / 512 < grid1.N := by rw [N_1]; omega
  refine ⟨⟨(i 0).val / 512, hN⟩, flush1_5 _, ?_⟩
  obtain ⟨-, -, -, -, -, -, -, -, -, -, -, e50, e51⟩ := idx_facts1 ⟨(i 0).val / 512, hN⟩
  rw [mem_blk1]
  intro a
  match a with
  | ⟨0, _⟩ =>
    show win1_5.index ⟨(i 0).val / 512, hN⟩ (0 : Fin 2) * 512 ≤ (i 0).val
      ∧ (i 0).val < win1_5.index ⟨(i 0).val / 512, hN⟩ (0 : Fin 2) * 512 + 512
    rw [e50]
    show (i 0).val / 512 * 512 ≤ (i 0).val ∧ (i 0).val < (i 0).val / 512 * 512 + 512
    omega
  | ⟨1, _⟩ =>
    show win1_5.index ⟨(i 0).val / 512, hN⟩ (1 : Fin 2) * 40 ≤ (i 1).val
      ∧ (i 1).val < win1_5.index ⟨(i 0).val / 512, hN⟩ (1 : Fin 2) * 40 + 40
    rw [e51]
    omega

/-- The output array after the region is the whole-array function. -/
theorem final1_fun (c : Dev nD) : (dat1 (F := Ideal) V c).arrAt 5 cfg1.N = G1 V c :=
  (dat1 (F := Ideal) V c).arrAt_eq_of_cover 5 (G1 V c) (fun t _ => flushed1_eq V c t) cover1

/-- The output array after the region, entry by entry: the second layer of the specification over the arrays
    the region finds. -/
theorem final1 (c : Dev nD) (r : Fin 4096) (j : Fin 40) :
    (dat1 (F := Ideal) V c).arrAt 5 cfg1.N (ix2 r j)
      = Cert.Gcn.layer2 (fun l q => V c main_v3 (ix2 l q)) (V c main_arg1) (fun i => V c main_v1 (ix2 (0 : Fin 1) (i 0)))
          (V c main_arg6) (fun i => V c main_v2 (ix2 (0 : Fin 1) (i 0))) r j := by
  rw [final1_fun]
  rfl

end Cert.KernelIdeal.HandValue

end
-- ==== Proof.KiResult.lean ====
/-
  The result buffer of the idealized kernel program, entry by entry, in terms of the launch contents.
  The second region's array is the second-layer formula of ITS entry contents; those are: the first region's
  array (the first-layer formula of the launch contents), the adjacency array and the output weights as
  launched, and the two bias rows as the host reshapes [128] → [1,128], [40] → [1,40] left them — row 0 of the
  reshaped array is the bias vector. Substituting gives  max (A₁ · hw + b2, 0) · Wout + bout  with
  hw = max (A₀ · (x · W1) + b1, 0) · W2  of the eight launch arrays.
-/
import proofs.«138342_g9079560864557_cont_9to1_m_1012_20_alg».proof.Proof.KiRun
import proofs.«138342_g9079560864557_cont_9to1_m_1012_20_alg».proof.Proof.KiValue1
import proofs.«138342_g9079560864557_cont_9to1_m_1012_20_alg».proof.Proof.KiValue2
import Idealize.ShloMosaic.Lib.ValueLayout
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-! ## The reshaped bias rows after the host stretch -/

theorem W1_v0 (c : Dev nD) :
    (W1 m c (Proc.devRef .tc main_v0) : S1x128.Idx → EReal)
      = shapeCast S1x128 (m ((c : Thread nD τ).loc main_arg3)) shapeCasts_S128_S1x128 := by
  show StableHlo.after hostOps0 (fun b => m (c, b)) (Proc.devRef .tc main_v0) = _
  after_results
  rfl
theorem W1_v1 (c : Dev nD) :
    (W1 m c (Proc.devRef .tc main_v1) : S1x128.Idx → EReal)
      = shapeCast S1x128 (m ((c : Thread nD τ).loc main_arg5)) shapeCasts_S128_S1x128 := by
  show StableHlo.after hostOps0 (fun b => m (c, b)) (Proc.devRef .tc main_v1) = _
  after_results
  rfl
theorem W1_v2 (c : Dev nD) :
    (W1 m c (Proc.devRef .tc main_v2) : S1x40.Idx → EReal)
      = shapeCast S1x40 (m ((c : Thread nD τ).loc main_arg7)) shapeCasts_S40_S1x40 := by
  show StableHlo.after hostOps0 (fun b => m (c, b)) (Proc.devRef .tc main_v2) = _
  after_results
  rfl

theorem b1_at (c : Dev nD) (q : Fin 128) :
    W1 m c (Proc.devRef .tc main_v0) (ix2 (0 : Fin 1) q) = m ((c : Thread nD τ).loc main_arg3) (ix1 q) :=
  (congrFun (W1_v0 m c) _).trans (shapeCast_a_1a_apply _ _ 0 q)
theorem b2_at (c : Dev nD) (q : Fin 128) :
    W1 m c (Proc.devRef .tc main_v1) (ix2 (0 : Fin 1) q) = m ((c : Thread nD τ).loc main_arg5) (ix1 q) :=
  (congrFun (W1_v1 m c) _).trans (shapeCast_a_1a_apply _ _ 0 q)
theorem bout_at (c : Dev nD) (q : Fin 40) :
    W1 m c (Proc.devRef .tc main_v2) (ix2 (0 : Fin 1) q) = m ((c : Thread nD τ).loc main_arg7) (ix1 q) :=
  (congrFun (W1_v2 m c) _).trans (shapeCast_a_1a_apply _ _ 0 q)

/-! ## The first region's entry contents are the launch contents -/

theorem U1_arg0 (c : Dev nD) : U1 m c main_arg0 = m ((c : Thread nD τ).loc main_arg0) := W1_arg m c main_arg0 (by decide)
theorem U1_arg1 (c : Dev nD) : U1 m c main_arg1 = m ((c : Thread nD τ).loc main_arg1) := W1_arg m c main_arg1 (by decide)
theorem U1_arg2 (c : Dev nD) : U1 m c main_arg2 = m ((c : Thread nD τ).loc main_arg2) := W1_arg m c main_arg2 (by decide)
theorem U1_arg4 (c : Dev nD) : U1 m c main_arg4 = m ((c : Thread nD τ).loc main_arg4) := W1_arg m c main_arg4 (by decide)
theorem U1_b1 (c : Dev nD) : b1row (U1 m) c = m ((c : Thread nD τ).loc main_arg3) := by
  funext k
  show W1 m c (Proc.devRef .tc main_v0) (ix2 (0 : Fin 1) (k 0)) = _
  rw [b1_at m c (k 0)]
  exact congrArg _ (eq_ix1 k).symm

/-- The array the first region hands to the second: the first-layer formula of the launch contents. -/
theorem hw_at (c : Dev nD) (l : Fin 4096) (q : Fin 128) :
    U2 m c main_v3 (ix2 l q)
      = Cert.Gcn.hw (m ((c : Thread nD τ).loc main_arg0)) (m ((c : Thread nD τ).loc main_arg1)) (m ((c : Thread nD τ).loc main_arg2))
          (m ((c : Thread nD τ).loc main_arg3)) (m ((c : Thread nD τ).loc main_arg4)) l q := by
  refine (congrFun (W2_arr m c 5) _).trans ?_
  rw [final0_apply (U1 m) c l q, U1_arg0, U1_arg1, U1_arg2, U1_arg4, U1_b1]
  rfl

/-! ## The second region's entry contents -/

theorem U2_arg1 (c : Dev nD) : U2 m c main_arg1 = m ((c : Thread nD τ).loc main_arg1) :=
  (W2_arr m c 1).trans (((dat0 (U1 m) c).arrAt_in 1 rfl _).trans ((A_eq0 (U1 m) c 1).trans (W1_arg m c main_arg1 (by decide))))
theorem U2_arg6 (c : Dev nD) : U2 m c main_arg6 = m ((c : Thread nD τ).loc main_arg6) :=
  (W2_of_ne m c main_arg6 (by decide)).trans (W1_arg m c main_arg6 (by decide))
theorem U2_b2 (c : Dev nD) : (fun i : (⟨1, ![128]⟩ : Shape).Idx => U2 m c main_v1 (ix2 (0 : Fin 1) (i 0))) = m ((c : Thread nD τ).loc main_arg5) := by
  funext k
  show W2 m c (Proc.devRef .tc main_v1) (ix2 (0 : Fin 1) (k 0)) = _
  rw [W2_of_ne m c main_v1 (by decide), b2_at m c (k 0)]
  exact congrArg _ (eq_ix1 k).symm
theorem U2_bout (c : Dev nD) : (fun i : (⟨1, ![40]⟩ : Shape).Idx => U2 m c main_v2 (ix2 (0 : Fin 1) (i 0))) = m ((c : Thread nD τ).loc main_arg7) := by
  funext k
  show W2 m c (Proc.devRef .tc main_v2) (ix2 (0 : Fin 1) (k 0)) = _
  rw [W2_of_ne m c main_v2 (by decide), bout_at m c (k 0)]
  exact congrArg _ (eq_ix1 k).symm

/-! ## The result -/

/-- The result array as one function of the eight launch arrays. -/
def result (c : Dev nD) : S4096x40.Idx → EReal := fun i =>
  Cert.Gcn.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

/-- The result buffer ends at it. -/
theorem result_eq (c : Dev nD) : W3 m c (Proc.devRef .tc main_v4) = result m c := by
  funext i
  obtain ⟨r, j, rfl⟩ : ∃ (r : Fin 4096) (j : Fin 40), i = ix2 r j := ⟨i 0, i 1, eq_ix2 i⟩
  refine (congrFun (W3_main_v4 m c) _).trans ?_
  rw [final1 (U2 m) c r j]
  have g : (fun (l : Fin 4096) (q : Fin 128) => U2 m c main_v3 (ix2 l q))
      = Cert.Gcn.hw (m ((c : Thread nD τ).loc main_arg0)) (m ((c : Thread nD τ).loc main_arg1)) (m ((c : Thread nD τ).loc main_arg2))
          (m ((c : Thread nD τ).loc main_arg3)) (m ((c : Thread nD τ).loc main_arg4)) :=
    funext fun l => funext fun q => hw_at m c l q
  rw [g, U2_arg1, U2_arg6, U2_b2, U2_bout]
  rfl

end Cert.KernelIdeal.HandValue

end
-- ==== Proof.GcnRef.lean ====
/-
  The reference program read stage by stage: its final result, at the extended reals, is the
  two-layer graph-convolution formula of the specification, index by index.
-/
import proofs.«138342_g9079560864557_cont_9to1_m_1012_20_alg».proof.Proof.Gen.ReferenceIdeal.Run
import proofs.«138342_g9079560864557_cont_9to1_m_1012_20_alg».proof.Proof.Gen.ReferenceIdeal.Read
import proofs.«138342_g9079560864557_cont_9to1_m_1012_20_alg».proof.Proof.GcnSpec

noncomputable section

namespace Cert.Gcn

open Idealize.ShloMosaic Idealize.ShloMosaic.ValueIdx

/-- The first adjacency slab as a 4096 × 4096 matrix: slab 0 of the stacked array. -/
theorem ref_adj0 (x1 : (⟨Cert.ReferenceIdeal.S2x4096x4096, .f32⟩ : BufTy).Contents (Elt Ideal)) (r l : Fin 4096) :
    Cert.ReferenceIdeal.Read.val_main_v1 (F := Ideal) x1 (ix2 r l) = x1 (ix3 (0 : Fin 2) r l) := by
  rw [Cert.ReferenceIdeal.Read.val_main_v1_apply, Cert.ReferenceIdeal.Read.val_main_v0_apply]
  refine congrArg x1 (funext fun a => Fin.ext ?_)
  have hr := r.isLt
  have hl := l.isLt
  match a with
  | ⟨0, _⟩ => rfl
  | ⟨1, _⟩ => show (r.val * 4096 + l.val) / 4096 % 4096 = r.val; omega
  | ⟨2, _⟩ => show (r.val * 4096 + l.val) % 4096 = l.val; omega

/-- The second adjacency slab as a 4096 × 4096 matrix: slab 1 of the stacked array. -/
theorem ref_adj1 (x1 : (⟨Cert.ReferenceIdeal.S2x4096x4096, .f32⟩ : BufTy).Contents (Elt Ideal)) (r l : Fin 4096) :
    Cert.ReferenceIdeal.Read.val_main_v9 (F := Ideal) x1 (ix2 r l) = x1 (ix3 (1 : Fin 2) r l) := by
  rw [Cert.ReferenceIdeal.Read.val_main_v9_apply, Cert.ReferenceIdeal.Read.val_main_v8_apply]
  refine congrArg x1 (funext fun a => Fin.ext ?_)
  have hr := r.isLt
  have hl := l.isLt
  match a with
  | ⟨0, _⟩ => rfl
  | ⟨1, _⟩ => show (r.val * 4096 + l.val) / 4096 % 4096 = r.val; omega
  | ⟨2, _⟩ => show (r.val * 4096 + l.val) % 4096 = l.val; omega

/-- x · W1. -/
theorem ref_proj (x0 : (⟨Cert.ReferenceIdeal.S4096x128, .f32⟩ : BufTy).Contents (Elt Ideal)) (x2 : (⟨Cert.ReferenceIdeal.S128x128, .f32⟩ : BufTy).Contents (Elt Ideal)) (r : Fin 4096) (j : Fin 128) :
    Cert.ReferenceIdeal.Read.val_main_v2 (F := Ideal) x0 x2 (ix2 r j) = proj x0 x2 r j := by
  rw [Cert.ReferenceIdeal.Read.val_main_v2_apply]
  unfold proj
  refine Finset.sum_congr rfl fun k _ => ?_
  have el : Cert.ReferenceIdeal.Read.lidx_main_v2 (ix2 r j) k = ix2 r k :=
    funext fun a => Fin.ext (by match a with | ⟨0, _⟩ => rfl | ⟨1, _⟩ => rfl)
  have er : Cert.ReferenceIdeal.Read.ridx_main_v2 (ix2 r j) k = ix2 k j :=
    funext fun a => Fin.ext (by match a with | ⟨0, _⟩ => rfl | ⟨1, _⟩ => rfl)
  rw [el, er]

/-- The first bias row on every row. -/
theorem ref_b1 (x3 : (⟨Cert.ReferenceIdeal.S128, .f32⟩ : BufTy).Contents (Elt Ideal)) (r : Fin 4096) (j : Fin 128) :
    Cert.ReferenceIdeal.Read.val_main_v5 (F := Ideal) x3 (ix2 r j) = x3 (ix1 j) := by
  rw [Cert.ReferenceIdeal.Read.val_main_v5_apply, Cert.ReferenceIdeal.Read.val_main_v4_apply]
  exact congrArg x3 (funext fun a => Fin.ext (by match a with | ⟨0, _⟩ => rfl))

/-- The second bias row on every row. -/
theorem ref_b2 (x5 : (⟨Cert.ReferenceIdeal.S128, .f32⟩ : BufTy).Contents (Elt Ideal)) (r : Fin 4096) (j : Fin 128) :
    Cert.ReferenceIdeal.Read.val_main_v13 (F := Ideal) x5 (ix2 r j) = x5 (ix1 j) := by
  rw [Cert.ReferenceIdeal.Read.val_main_v13_apply, Cert.ReferenceIdeal.Read.val_main_v12_apply]
  exact congrArg x5 (funext fun a => Fin.ext (by match a with | ⟨0, _⟩ => rfl))

/-- The output bias row on every row. -/
theorem ref_bout (x7 : (⟨Cert.ReferenceIdeal.S40, .f32⟩ : BufTy).Contents (Elt Ideal)) (r : Fin 4096) (j : Fin 40) :
    Cert.ReferenceIdeal.Read.val_main_v18 (F := Ideal) x7 (ix2 r j) = x7 (ix1 j) := by
  rw [Cert.ReferenceIdeal.Read.val_main_v18_apply, Cert.ReferenceIdeal.Read.val_main_v17_apply]
  exact congrArg x7 (funext fun a => Fin.ext (by match a with | ⟨0, _⟩ => rfl))

/-- max (A₀ · proj + b1, 0). -/
theorem ref_h1 (x0 : (⟨Cert.ReferenceIdeal.S4096x128, .f32⟩ : BufTy).Contents (Elt Ideal)) (x1 : (⟨Cert.ReferenceIdeal.S2x4096x4096, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal))
    (r : Fin 4096) (j : Fin 128) :
    Cert.ReferenceIdeal.Read.val_main_v7 (F := Ideal) x0 x1 x2 x3 (ix2 r j) = h1 x0 x1 x2 x3 r j := by
  rw [Cert.ReferenceIdeal.Read.val_main_v7_apply, Cert.ReferenceIdeal.Read.val_main_v6_apply, Cert.ReferenceIdeal.Read.val_main_v3_apply, ref_b1,
    Cert.ReferenceIdeal.Read.val_main_call0_v0_apply, Cert.ReferenceIdeal.Read.val_main_call0_cst_apply]
  unfold h1
  show max (_ + _) _ = max (_ + _) _
  refine congrArg (fun s => max (s + x3 (ix1 j)) zeroW) ?_
  refine Finset.sum_congr rfl fun k _ => ?_
  have el : Cert.ReferenceIdeal.Read.lidx_main_v3 (ix2 r j) k = ix2 r k :=
    funext fun a => Fin.ext (by match a with | ⟨0, _⟩ => rfl | ⟨1, _⟩ => rfl)
  have er : Cert.ReferenceIdeal.Read.ridx_main_v3 (ix2 r j) k = ix2 k j :=
    funext fun a => Fin.ext (by match a with | ⟨0, _⟩ => rfl | ⟨1, _⟩ => rfl)
  rw [el, er, ref_adj0, ref_proj]

/-- h1 · W2. -/
theorem ref_hw (x0 : (⟨Cert.ReferenceIdeal.S4096x128, .f32⟩ : BufTy).Contents (Elt Ideal)) (x1 : (⟨Cert.ReferenceIdeal.S2x4096x4096, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (r : Fin 4096) (j : Fin 128) :
    Cert.ReferenceIdeal.Read.val_main_v10 (F := Ideal) x0 x1 x2 x3 x4 (ix2 r j) = hw x0 x1 x2 x3 x4 r j := by
  rw [Cert.ReferenceIdeal.Read.val_main_v10_apply]
  unfold hw
  refine Finset.sum_congr rfl fun k _ => ?_
  have el : Cert.ReferenceIdeal.Read.lidx_main_v10 (ix2 r j) k = ix2 r k :=
    funext fun a => Fin.ext (by match a with | ⟨0, _⟩ => rfl | ⟨1, _⟩ => rfl)
  have er : Cert.ReferenceIdeal.Read.ridx_main_v10 (ix2 r j) k = ix2 k j :=
    funext fun a => Fin.ext (by match a with | ⟨0, _⟩ => rfl | ⟨1, _⟩ => rfl)
  rw [el, er, ref_h1]

/-- max (A₁ · hw + b2, 0). -/
theorem ref_h2 (x0 : (⟨Cert.ReferenceIdeal.S4096x128, .f32⟩ : BufTy).Contents (Elt Ideal)) (x1 : (⟨Cert.ReferenceIdeal.S2x4096x4096, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal)) (r : Fin 4096) (j : Fin 128) :
    Cert.ReferenceIdeal.Read.val_main_v15 (F := Ideal) x0 x1 x2 x3 x4 x5 (ix2 r j) = h2 x0 x1 x2 x3 x4 x5 r j := by
  rw [Cert.ReferenceIdeal.Read.val_main_v15_apply, Cert.ReferenceIdeal.Read.val_main_v14_apply, Cert.ReferenceIdeal.Read.val_main_v11_apply, ref_b2,
    Cert.ReferenceIdeal.Read.val_main_call1_v0_apply, Cert.ReferenceIdeal.Read.val_main_call1_cst_apply]
  unfold h2
  show max (_ + _) _ = max (_ + _) _
  refine congrArg (fun s => max (s + x5 (ix1 j)) zeroW) ?_
  refine Finset.sum_congr rfl fun k _ => ?_
  have el : Cert.ReferenceIdeal.Read.lidx_main_v11 (ix2 r j) k = ix2 r k :=
    funext fun a => Fin.ext (by match a with | ⟨0, _⟩ => rfl | ⟨1, _⟩ => rfl)
  have er : Cert.ReferenceIdeal.Read.ridx_main_v11 (ix2 r j) k = ix2 k j :=
    funext fun a => Fin.ext (by match a with | ⟨0, _⟩ => rfl | ⟨1, _⟩ => rfl)
  rw [el, er, ref_adj1, ref_hw]

/-- The reference's result is the specification's out, entry by entry. -/
theorem ref_eq (x0 : (⟨Cert.ReferenceIdeal.S4096x128, .f32⟩ : BufTy).Contents (Elt Ideal)) (x1 : (⟨Cert.ReferenceIdeal.S2x4096x4096, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x40, .f32⟩ : BufTy).Contents (Elt Ideal)) (x7 : (⟨Cert.ReferenceIdeal.S40, .f32⟩ : BufTy).Contents (Elt Ideal))
    (r : Fin 4096) (j : Fin 40) :
    Cert.ReferenceIdeal.Read.val_main_v19 (F := Ideal) x0 x1 x2 x3 x4 x5 x6 x7 (ValueIdx.ix2 r j)
      = Cert.Gcn.out x0 x1 x2 x3 x4 x5 x6 x7 r j := by
  rw [Cert.ReferenceIdeal.Read.val_main_v19_apply, Cert.ReferenceIdeal.Read.val_main_v16_apply, ref_bout]
  unfold out
  show _ + _ = _ + _
  refine congrArg (· + x7 (ix1 j)) ?_
  refine Finset.sum_congr rfl fun k _ => ?_
  have el : Cert.ReferenceIdeal.Read.lidx_main_v16 (ix2 r j) k = ix2 r k :=
    funext fun a => Fin.ext (by match a with | ⟨0, _⟩ => rfl | ⟨1, _⟩ => rfl)
  have er : Cert.ReferenceIdeal.Read.ridx_main_v16 (ix2 r j) k = ix2 k j :=
    funext fun a => Fin.ext (by match a with | ⟨0, _⟩ => rfl | ⟨1, _⟩ => rfl)
  rw [el, er, ref_h2]

end Cert.Gcn

end
-- ==== Proof.lean ====
/-
  A two-layer dense graph convolution, a tiled kernel against a plain reference.

      h1  = max (A₀ · (x · W1) + b1, 0)
      h2  = max (A₁ · (h1 · W2) + b2, 0)
      out = h2 · Wout + bout

  The kernel program makes two passes over eight 512-row slabs of the adjacency matrices. The first pass
  computes x · W1 once, at its first grid point, keeps it in a scratch buffer for the other seven points, and
  writes hw = h1 · W2 slab by slab; the second pass reads hw whole and writes out slab by slab. The reference
  computes the same five stages on whole arrays. Over the extended reals both are literally the same nested
  finite sums — a matrix product into a zero accumulator is the sum over the contracted axis, the slabs tile
  the rows, the host reshapes of the bias vectors only rename an index — so no law of arithmetic beyond
  rewriting index by index is used, and the finiteness of the inputs is never needed.

  The frames: each kernel program is run as three segments (the host reshapes, the first region, the second
  region) with the core's buffer contents named at every boundary; the first region's invariant carries the
  scratch at one fixed array from its second point on. The reference's frame is its run with the result dropped.
  Nothing was rewritten when the kernel was idealized, so that conjunct is trivial.
-/
import proofs.«138342_g9079560864557_cont_9to1_m_1012_20_alg».proof.Defs
import proofs.«138342_g9079560864557_cont_9to1_m_1012_20_alg».proof.Proof.Gen.Kernel
import proofs.«138342_g9079560864557_cont_9to1_m_1012_20_alg».proof.Proof.Gen.KernelIdeal
import proofs.«138342_g9079560864557_cont_9to1_m_1012_20_alg».proof.Proof.Gen.ReferenceIdeal
import proofs.«138342_g9079560864557_cont_9to1_m_1012_20_alg».proof.Proof.Gen.Pre_finite_inputs
import proofs.«138342_g9079560864557_cont_9to1_m_1012_20_alg».proof.Proof.Gen.ReferenceIdeal.Run
import proofs.«138342_g9079560864557_cont_9to1_m_1012_20_alg».proof.Proof.Gen.ReferenceIdeal.Read
import proofs.«138342_g9079560864557_cont_9to1_m_1012_20_alg».proof.Proof.KwRun
import proofs.«138342_g9079560864557_cont_9to1_m_1012_20_alg».proof.Proof.KiRun
import proofs.«138342_g9079560864557_cont_9to1_m_1012_20_alg».proof.Proof.KiResult
import proofs.«138342_g9079560864557_cont_9to1_m_1012_20_alg».proof.Proof.GcnRef
import Idealize.ShloMosaic.Adequacy
import Idealize.ShloMosaic.Init

noncomputable section

namespace Cert.Proof

open Idealize.ShloMosaic Idealize.SL.Sem Idealize.ShloMosaic.ValueIdx

/-- The word-level kernel program runs to the end and leaves its eight arguments as launched. -/
theorem frame_kernel : Cert.frame_Kernel := fun m ρ _ => Cert.Kernel.Hand.frame m ρ

/-- So does its reading over the extended reals. -/
theorem frame_kernelIdeal : Cert.frame_KernelIdeal := fun m ρ _ => Cert.KernelIdeal.Hand.frame m ρ

/-- The reference is a straight line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories that agree on the eight arguments both programs end with the result array at the one
    function `out` of those arguments: the kernel's by its two regions' arrays read entry by entry, the
    reference's by its stages read entry by entry. -/
theorem algebraic : Cert.algebraic_KernelIdeal_ReferenceIdeal := by
  intro m ρ m' ρ' _ hagree
  refine ⟨fun c => Cert.KernelIdeal.HandValue.result m c, ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v4 (by decide))).trans (Cert.KernelIdeal.HandValue.result_eq m c),
      (h c _ (Cert.KernelIdeal.Hand.mem_uc Cert.KernelIdeal.main_arg0 (by decide))).trans (Cert.KernelIdeal.Hand.W3_main_arg0 m c),
      (h c _ (Cert.KernelIdeal.Hand.mem_uc Cert.KernelIdeal.main_arg1 (by decide))).trans (Cert.KernelIdeal.Hand.W3_main_arg1 m c),
      (h c _ (Cert.KernelIdeal.Hand.mem_uc Cert.KernelIdeal.main_arg2 (by decide))).trans (Cert.KernelIdeal.Hand.W3_main_arg2 m c),
      (h c _ (Cert.KernelIdeal.Hand.mem_uc Cert.KernelIdeal.main_arg3 (by decide))).trans (Cert.KernelIdeal.Hand.W3_main_arg3 m c),
      (h c _ (Cert.KernelIdeal.Hand.mem_uc Cert.KernelIdeal.main_arg4 (by decide))).trans (Cert.KernelIdeal.Hand.W3_main_arg4 m c),
      (h c _ (Cert.KernelIdeal.Hand.mem_uc Cert.KernelIdeal.main_arg5 (by decide))).trans (Cert.KernelIdeal.Hand.W3_main_arg5 m c),
      (h c _ (Cert.KernelIdeal.Hand.mem_uc Cert.KernelIdeal.main_arg6 (by decide))).trans (Cert.KernelIdeal.Hand.W3_main_arg6 m c),
      (h c _ (Cert.KernelIdeal.Hand.mem_uc Cert.KernelIdeal.main_arg7 (by decide))).trans (Cert.KernelIdeal.Hand.W3_main_arg7 m c)⟩
  · refine (θ_run Cert.ReferenceIdeal.defs _ _).mono (fun r h c => ⟨?_, (h c).2⟩)
      (Cert.ReferenceIdeal.Value.run (F := Ideal) m' ρ')
    refine ((h c).1.trans (Cert.ReferenceIdeal.Read.val_main_v19_eq _ _ _ _ _ _ _ _)).trans ?_
    funext i
    obtain ⟨r, j, rfl⟩ : ∃ (r : Fin 4096) (j : Fin 40), i = ix2 r j := ⟨i 0, i 1, eq_ix2 i⟩
    rw [Cert.Gcn.ref_eq]
    obtain ⟨e0, e1, e2, e3, e4, e5, e6, e7⟩ := hagree c
    rw [e0, e1, e2, e3, e4, e5, e6, e7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
